-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256 : Shape := ⟨2, ![128, 256]⟩
abbrev S128x256x256 : Shape := ⟨3, ![128, 256, 256]⟩
abbrev S50000x300 : Shape := ⟨2, ![50000, 300]⟩
abbrev S52x30 : Shape := ⟨2, ![52, 30]⟩
abbrev S20x30 : Shape := ⟨2, ![20, 30]⟩
abbrev S200x360 : Shape := ⟨2, ![200, 360]⟩
abbrev S200 : Shape := ⟨1, ![200]⟩
abbrev S200x200 : Shape := ⟨2, ![200, 200]⟩
abbrev S_ : Shape := ⟨0, ![]⟩

class Facts : Prop where
  bcast_S_S128x256x256 : S_.BroadcastsInDim S128x256x256 (![] : Fin 0 → Fin S128x256x256.rank)
  reducesTo_S128x256x256_S_d0_1_2 : S128x256x256.ReducesTo [0, 1, 2] S_
  h_S_ : 0 < S_.numel
  bcast_S_S50000x300 : S_.BroadcastsInDim S50000x300 (![] : Fin 0 → Fin S50000x300.rank)
  reducesTo_S50000x300_S_d0_1 : S50000x300.ReducesTo [0, 1] S_
  bcast_S_S52x30 : S_.BroadcastsInDim S52x30 (![] : Fin 0 → Fin S52x30.rank)
  reducesTo_S52x30_S_d0_1 : S52x30.ReducesTo [0, 1] S_
  bcast_S_S20x30 : S_.BroadcastsInDim S20x30 (![] : Fin 0 → Fin S20x30.rank)
  reducesTo_S20x30_S_d0_1 : S20x30.ReducesTo [0, 1] S_
  bcast_S_S200x360 : S_.BroadcastsInDim S200x360 (![] : Fin 0 → Fin S200x360.rank)
  reducesTo_S200x360_S_d0_1 : S200x360.ReducesTo [0, 1] S_
  bcast_S_S200 : S_.BroadcastsInDim S200 (![] : Fin 0 → Fin S200.rank)
  reducesTo_S200_S_d0 : S200.ReducesTo [0] S_
  bcast_S_S200x200 : S_.BroadcastsInDim S200x200 (![] : Fin 0 → Fin S200x200.rank)
  reducesTo_S200x200_S_d0_1 : S200x200.ReducesTo [0, 1] S_

variable [Facts]

def fn_part2 {F : FTy → Type} [FloatOps F] (main_arg10 : FVec F S200 .f32) (main_v33 : IVec S_ 1) : IVec S_ 1 :=
  let main_v34 : FVec F S200 .f32 := Host.absf main_arg10
  let main_cst_12 : FVec F S_ .f32 := constant S_ .f32 0x7F800000#32
  let main_v35 : FVec F S200 .f32 := broadcastInDim S200 ![] bcast_S_S200 main_cst_12
  let main_v36 : IVec S200 1 := cmpf .olt main_v34 main_v35
  let main_c_13 : IVec S_ 1 := constantI S_ 1 1#1
  let main_v37 : IVec S_ 1 := (fun x v => Host.reduce IntOp.andi x v reducesTo_S200_S_d0 h_S_) main_v36 main_c_13
  let main_v38 : IVec S_ 1 := andi main_v33 main_v37
  main_v38

def fn_part1 {F : FTy → Type} [FloatOps F] (main_arg7 : FVec F S200x360 .f32) (main_arg8 : FVec F S200 .f32) (main_arg9 : FVec F S200x200 .f32) (main_arg10 : FVec F S200 .f32) (main_v13 : IVec S_ 1) (main_v16 : IVec S20x30 1) : IVec S_ 1 :=
  let main_c_5 : IVec S_ 1 := constantI S_ 1 1#1
  let main_v17 : IVec S_ 1 := (fun x v => Host.reduce IntOp.andi x v reducesTo_S20x30_S_d0_1 h_S_) main_v16 main_c_5
  let main_v18 : IVec S_ 1 := andi main_v13 main_v17
  let main_v19 : FVec F S200x360 .f32 := Host.absf main_arg7
  let main_cst_6 : FVec F S_ .f32 := constant S_ .f32 0x7F800000#32
  let main_v20 : FVec F S200x360 .f32 := broadcastInDim S200x360 ![] bcast_S_S200x360 main_cst_6
  let main_v21 : IVec S200x360 1 := cmpf .olt main_v19 main_v20
  let main_c_7 : IVec S_ 1 := constantI S_ 1 1#1
  let main_v22 : IVec S_ 1 := (fun x v => Host.reduce IntOp.andi x v reducesTo_S200x360_S_d0_1 h_S_) main_v21 main_c_7
  let main_v23 : IVec S_ 1 := andi main_v18 main_v22
  let main_v24 : FVec F S200 .f32 := Host.absf main_arg8
  let main_cst_8 : FVec F S_ .f32 := constant S_ .f32 0x7F800000#32
  let main_v25 : FVec F S200 .f32 := broadcastInDim S200 ![] bcast_S_S200 main_cst_8
  let main_v26 : IVec S200 1 := cmpf .olt main_v24 main_v25
  let main_c_9 : IVec S_ 1 := constantI S_ 1 1#1
  let main_v27 : IVec S_ 1 := (fun x v => Host.reduce IntOp.andi x v reducesTo_S200_S_d0 h_S_) main_v26 main_c_9
  let main_v28 : IVec S_ 1 := andi main_v23 main_v27
  let main_v29 : FVec F S200x200 .f32 := Host.absf main_arg9
  let main_cst_10 : FVec F S_ .f32 := constant S_ .f32 0x7F800000#32
  let main_v30 : FVec F S200x200 .f32 := broadcastInDim S200x200 ![] bcast_S_S200x200 main_cst_10
  let main_v31 : IVec S200x200 1 := cmpf .olt main_v29 main_v30
  let main_c_11 : IVec S_ 1 := constantI S_ 1 1#1
  let main_v32 : IVec S_ 1 := (fun x v => Host.reduce IntOp.andi x v reducesTo_S200x200_S_d0_1 h_S_) main_v31 main_c_11
  let main_v33 : IVec S_ 1 := andi main_v28 main_v32
  fn_part2 (F := F) main_arg10 main_v33

def fn {F : FTy → Type} [FloatOps F] (main_arg0 : IVec S128x256 32) (main_arg1 : IVec S128x256 32) (main_arg2 : IVec S128x256 32) (main_arg3 : FVec F S128x256x256 .f32) (main_arg4 : FVec F S50000x300 .f32) (main_arg5 : FVec F S52x30 .f32) (main_arg6 : FVec F S20x30 .f32) (main_arg7 : FVec F S200x360 .f32) (main_arg8 : FVec F S200 .f32) (main_arg9 : FVec F S200x200 .f32) (main_arg10 : FVec F S200 .f32) : IVec S_ 1 :=
  let main_v0 : FVec F S128x256x256 .f32 := Host.absf main_arg3
  let main_cst : FVec F S_ .f32 := constant S_ .f32 0x7F800000#32
  let main_v1 : FVec F S128x256x256 .f32 := broadcastInDim S128x256x256 ![] bcast_S_S128x256x256 main_cst
  let main_v2 : IVec S128x256x256 1 := cmpf .olt main_v0 main_v1
  let main_c : IVec S_ 1 := constantI S_ 1 1#1
  let main_v3 : IVec S_ 1 := (fun x v => Host.reduce IntOp.andi x v reducesTo_S128x256x256_S_d0_1_2 h_S_) main_v2 main_c
  let main_v4 : FVec F S50000x300 .f32 := Host.absf main_arg4
  let main_cst_0 : FVec F S_ .f32 := constant S_ .f32 0x7F800000#32
  let main_v5 : FVec F S50000x300 .f32 := broadcastInDim S50000x300 ![] bcast_S_S50000x300 main_cst_0
  let main_v6 : IVec S50000x300 1 := cmpf .olt main_v4 main_v5
  let main_c_1 : IVec S_ 1 := constantI S_ 1 1#1
  let main_v7 : IVec S_ 1 := (fun x v => Host.reduce IntOp.andi x v reducesTo_S50000x300_S_d0_1 h_S_) main_v6 main_c_1
  let main_v8 : IVec S_ 1 := andi main_v3 main_v7
  let main_v9 : FVec F S52x30 .f32 := Host.absf main_arg5
  let main_cst_2 : FVec F S_ .f32 := constant S_ .f32 0x7F800000#32
  let main_v10 : FVec F S52x30 .f32 := broadcastInDim S52x30 ![] bcast_S_S52x30 main_cst_2
  let main_v11 : IVec S52x30 1 := cmpf .olt main_v9 main_v10
  let main_c_3 : IVec S_ 1 := constantI S_ 1 1#1
  let main_v12 : IVec S_ 1 := (fun x v => Host.reduce IntOp.andi x v reducesTo_S52x30_S_d0_1 h_S_) main_v11 main_c_3
  let main_v13 : IVec S_ 1 := andi main_v8 main_v12
  let main_v14 : FVec F S20x30 .f32 := Host.absf main_arg6
  let main_cst_4 : FVec F S_ .f32 := constant S_ .f32 0x7F800000#32
  let main_v15 : FVec F S20x30 .f32 := broadcastInDim S20x30 ![] bcast_S_S20x30 main_cst_4
  let main_v16 : IVec S20x30 1 := cmpf .olt main_v14 main_v15
  fn_part1 (F := F) main_arg7 main_arg8 main_arg9 main_arg10 main_v13 main_v16
-- ==== Kernel.lean ====
abbrev S128x256 : Shape := ⟨2, ![128, 256]⟩
abbrev S128x256x256 : Shape := ⟨3, ![128, 256, 256]⟩
abbrev S50000x300 : Shape := ⟨2, ![50000, 300]⟩
abbrev S52x30 : Shape := ⟨2, ![52, 30]⟩
abbrev S20x30 : Shape := ⟨2, ![20, 30]⟩
abbrev S200x360 : Shape := ⟨2, ![200, 360]⟩
abbrev S200 : Shape := ⟨1, ![200]⟩
abbrev S200x200 : Shape := ⟨2, ![200, 200]⟩
abbrev S_ : Shape := ⟨0, ![]⟩
abbrev S128x256x1 : Shape := ⟨3, ![128, 256, 1]⟩
abbrev S128x256x300 : Shape := ⟨3, ![128, 256, 300]⟩
abbrev S128x256x30 : Shape := ⟨3, ![128, 256, 30]⟩
abbrev S128x256x360 : Shape := ⟨3, ![128, 256, 360]⟩
abbrev S360x200 : Shape := ⟨2, ![360, 200]⟩
abbrev S1x1x200 : Shape := ⟨3, ![1, 1, 200]⟩
abbrev S128x256x200 : Shape := ⟨3, ![128, 256, 200]⟩
abbrev S2x256x256 : Shape := ⟨3, ![2, 256, 256]⟩
abbrev S2x256x360 : Shape := ⟨3, ![2, 256, 360]⟩
abbrev S2x256x200 : Shape := ⟨3, ![2, 256, 200]⟩
abbrev S2x256x1 : Shape := ⟨3, ![2, 256, 1]⟩
abbrev S2x256 : Shape := ⟨2, ![2, 256]⟩
abbrev S512x360 : Shape := ⟨2, ![512, 360]⟩
abbrev S512x200 : Shape := ⟨2, ![512, 200]⟩

abbrev nBuf : Space → Nat
  | .hbm => 48
  | .vmem => 12
  | .smem => 0
  | _ => 0

abbrev bufTy : (tb : Table) → Fin (tcTables nBuf tb) → BufTy
  | .hbm, ⟨0, _⟩ => ⟨S128x256, .i32⟩
  | .hbm, ⟨1, _⟩ => ⟨S128x256, .i32⟩
  | .hbm, ⟨2, _⟩ => ⟨S128x256, .i32⟩
  | .hbm, ⟨3, _⟩ => ⟨S128x256x256, .f32⟩
  | .hbm, ⟨4, _⟩ => ⟨S50000x300, .f32⟩
  | .hbm, ⟨5, _⟩ => ⟨S52x30, .f32⟩
  | .hbm, ⟨6, _⟩ => ⟨S20x30, .f32⟩
  | .hbm, ⟨7, _⟩ => ⟨S200x360, .f32⟩
  | .hbm, ⟨8, _⟩ => ⟨S200, .f32⟩
  | .hbm, ⟨9, _⟩ => ⟨S200x200, .f32⟩
  | .hbm, ⟨10, _⟩ => ⟨S200, .f32⟩
  | .hbm, ⟨11, _⟩ => ⟨S_, .i32⟩
  | .hbm, ⟨12, _⟩ => ⟨S128x256, .i32⟩
  | .hbm, ⟨13, _⟩ => ⟨S128x256, .i1⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S128x256, .i32⟩
  | .hbm, ⟨18, _⟩ => ⟨S128x256x1, .i32⟩
  | .hbm, ⟨19, _⟩ => ⟨S128x256x300, .f32⟩
  | .hbm, ⟨20, _⟩ => ⟨S_, .i32⟩
  | .hbm, ⟨21, _⟩ => ⟨S128x256, .i32⟩
  | .hbm, ⟨22, _⟩ => ⟨S128x256, .i1⟩
  | .hbm, ⟨23, _⟩ => ⟨S_, .i32⟩
  | .hbm, ⟨24, _⟩ => ⟨S128x256, .i32⟩
  | .hbm, ⟨25, _⟩ => ⟨S128x256, .i32⟩
  | .hbm, ⟨26, _⟩ => ⟨S128x256, .i32⟩
  | .hbm, ⟨27, _⟩ => ⟨S128x256x1, .i32⟩
  | .hbm, ⟨28, _⟩ => ⟨S128x256x30, .f32⟩
  | .hbm, ⟨29, _⟩ => ⟨S_, .i32⟩
  | .hbm, ⟨30, _⟩ => ⟨S128x256, .i32⟩
  | .hbm, ⟨31, _⟩ => ⟨S128x256, .i1⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S128x256x1, .i32⟩
  | .hbm, ⟨37, _⟩ => ⟨S128x256x30, .f32⟩
  | .hbm, ⟨38, _⟩ => ⟨S128x256x360, .f32⟩
  | .hbm, ⟨39, _⟩ => ⟨S360x200, .f32⟩
  | .hbm, ⟨40, _⟩ => ⟨S200x200, .f32⟩
  | .hbm, ⟨41, _⟩ => ⟨S1x1x200, .f32⟩
  | .hbm, ⟨42, _⟩ => ⟨S1x1x200, .f32⟩
  | .hbm, ⟨43, _⟩ => ⟨S128x256x200, .f32⟩
  | .hbm, ⟨44, _⟩ => ⟨S128x256x1, .f32⟩
  | .hbm, ⟨45, _⟩ => ⟨S_, .f32⟩
  | .hbm, ⟨46, _⟩ => ⟨S128x256x1, .f32⟩
  | .hbm, ⟨47, _⟩ => ⟨S128x256x1, .i1⟩
  | .local _ .vmem, ⟨0, _⟩ => ⟨S2x256x256, .f32⟩
  | .local _ .vmem, ⟨1, _⟩ => ⟨S2x256x256, .f32⟩
  | .local _ .vmem, ⟨2, _⟩ => ⟨S2x256x360, .f32⟩
  | .local _ .vmem, ⟨3, _⟩ => ⟨S2x256x360, .f32⟩
  | .local _ .vmem, ⟨4, _⟩ => ⟨S360x200, .f32⟩
  | .local _ .vmem, ⟨5, _⟩ => ⟨S1x1x200, .f32⟩
  | .local _ .vmem, ⟨6, _⟩ => ⟨S200x200, .f32⟩
  | .local _ .vmem, ⟨7, _⟩ => ⟨S1x1x200, .f32⟩
  | .local _ .vmem, ⟨8, _⟩ => ⟨S2x256x200, .f32⟩
  | .local _ .vmem, ⟨9, _⟩ => ⟨S2x256x200, .f32⟩
  | .local _ .vmem, ⟨10, _⟩ => ⟨S2x256x1, .f32⟩
  | .local _ .vmem, ⟨11, _⟩ => ⟨S2x256x1, .f32⟩
  | _, _ => ⟨S128x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_cst : Ref sig .tc := ⟨.hbm, 45, rfl⟩
abbrev main_v27 : Ref sig .tc := ⟨.hbm, 46, rfl⟩
abbrev main_v28 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x360 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S360x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S200x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x256x200 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S128x256 : S_.BroadcastsInDim S128x256 (![] : Fin 0 → Fin S128x256.rank)
  bcast_S128x256_S128x256x1_0_1 : S128x256.BroadcastsInDim S128x256x1 (![0, 1] : Fin 2 → Fin S128x256x1.rank)
  concatenates_S128x256x300_S128x256x30_S128x256x30_S128x256x360_d2 : Shape.Concatenates [S128x256x300, S128x256x30, S128x256x30] S128x256x360 2
  transposes_S200x360_S360x200_1_0 : S200x360.Transposes [1, 0] S360x200
  transposes_S200x200_S200x200_1_0 : S200x200.Transposes [1, 0] S200x200
  shapeCasts_S200_S1x1x200 : S200.ShapeCasts S1x1x200
  inb_S2x256x256_S2x256x256_0_0_0 : ∀ a, (![0, 0, 0] : Fin 3 → Nat) a + S2x256x256.size a ≤ S2x256x256.size a
  h_S2x256x256 : 0 < S2x256x256.numel
  inb_S2x256x360_S2x256x360_0_0_0 : ∀ a, (![0, 0, 0] : Fin 3 → Nat) a + S2x256x360.size a ≤ S2x256x360.size a
  h_S2x256x360 : 0 < S2x256x360.numel
  shapeCasts_S2x256x360_S2x256x360 : S2x256x360.ShapeCasts S2x256x360
  reduces_S2x256x256_S2x256 : S2x256x256.Reduces [2] S2x256
  reduces_S2x256x256_S2x256_2 : S2x256x256.Reduces [1] S2x256
  shapeCasts_S2x256_S2x256x1 : S2x256.ShapeCasts S2x256x1
  natLt_1_32 : 1 < 32
  bitsLt_bf16_f32 : FTy.bits .bf16 < FTy.bits .f32
  shapeCasts_S2x256x360_S512x360 : S2x256x360.ShapeCasts S512x360
  inb_S360x200_S360x200_0_0 : ∀ a, (![0, 0] : Fin 2 → Nat) a + S360x200.size a ≤ S360x200.size a
  h_S360x200 : 0 < S360x200.numel
  shapeCasts_S360x200_S360x200 : S360x200.ShapeCasts S360x200
  shapeCasts_S512x200_S2x256x200 : S512x200.ShapeCasts S2x256x200
  inb_S1x1x200_S1x1x200_0_0_0 : ∀ a, (![0, 0, 0] : Fin 3 → Nat) a + S1x1x200.size a ≤ S1x1x200.size a
  h_S1x1x200 : 0 < S1x1x200.numel
  shapeCasts_S1x1x200_S1x1x200 : S1x1x200.ShapeCasts S1x1x200
  broadcasts_S1x1x200_S2x256x200 : S1x1x200.Broadcasts S2x256x200
  broadcasts_S2x256x1_S2x256x200 : S2x256x1.Broadcasts S2x256x200
  shapeCasts_S2x256x200_S512x200 : S2x256x200.ShapeCasts S512x200
  inb_S200x200_S200x200_0_0 : ∀ a, (![0, 0] : Fin 2 → Nat) a + S200x200.size a ≤ S200x200.size a
  h_S200x200 : 0 < S200x200.numel
  shapeCasts_S200x200_S200x200 : S200x200.ShapeCasts S200x200
  inb_S2x256x200_S2x256x200_0_0_0 : ∀ a, (![0, 0, 0] : Fin 3 → Nat) a + S2x256x200.size a ≤ S2x256x200.size a
  h_S2x256x200 : 0 < S2x256x200.numel
  inb_S2x256x1_S2x256x1_0_0_0 : ∀ a, (![0, 0, 0] : Fin 3 → Nat) a + S2x256x1.size a ≤ S2x256x1.size a
  h_S2x256x1 : 0 < S2x256x1.numel
  bcast_S_S128x256x1 : S_.BroadcastsInDim S128x256x1 (![] : Fin 0 → Fin S128x256x1.rank)
  gather_S50000x300_S128x256x1_S128x256x300_2_0_n_n_0_2_1300_wf : GatherDims.WF S50000x300 S128x256x1 S128x256x300 [2] [0] [] [0] [] 2 ![1, 300]
  gather_S52x30_S128x256x1_S128x256x30_2_0_n_n_0_2_130_wf : GatherDims.WF S52x30 S128x256x1 S128x256x30 [2] [0] [] [0] [] 2 ![1, 30]
  gather_S20x30_S128x256x1_S128x256x30_2_0_n_n_0_2_130_wf : GatherDims.WF S20x30 S128x256x1 S128x256x30 [2] [0] [] [0] [] 2 ![1, 30]
  dot_S2x256x256_S2x256x360_S2x256x360_2_1_1_2_0_0_wf : DotDims.WF S2x256x256 S2x256x360 S2x256x360 [2] [1] [1] [2] [0] [0]
  dot_S512x360_S360x200_S512x200_1_0_0_1_n_n_wf : DotDims.WF S512x360 S360x200 S512x200 [1] [0] [0] [1] [] []
  dot_S2x256x256_S2x256x200_S2x256x200_2_1_1_2_0_0_wf : DotDims.WF S2x256x256 S2x256x200 S2x256x200 [2] [1] [1] [2] [0] [0]
  dot_S512x200_S200x200_S512x200_1_0_0_1_n_n_wf : DotDims.WF S512x200 S200x200 S512x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x256.size a ≤ S128x256x256.size a
  hwx0_0 : ∀ i : grid0.Coords, EltTy.bits .f32 = 32 ∨ (Rect.block (s := S128x256x256) S2x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x360.size a ≤ S128x256x360.size a
  hwx0_1 : ∀ i : grid0.Coords, EltTy.bits .f32 = 32 ∨ (Rect.block (s := S128x256x360) S2x256x360.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S360x200.size a ≤ S360x200.size a
  hwx0_2 : ∀ i : grid0.Coords, EltTy.bits .f32 = 32 ∨ (Rect.block (s := S360x200) S360x200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x200.size a ≤ S1x1x200.size a
  hwx0_3 : ∀ i : grid0.Coords, EltTy.bits .f32 = 32 ∨ (Rect.block (s := S1x1x200) S1x1x200.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S200x200.size a ≤ S200x200.size a
  hwx0_4 : ∀ i : grid0.Coords, EltTy.bits .f32 = 32 ∨ (Rect.block (s := S200x200) S200x200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x200.size a ≤ S1x1x200.size a
  hwx0_5 : ∀ i : grid0.Coords, EltTy.bits .f32 = 32 ∨ (Rect.block (s := S1x1x200) S1x1x200.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x256x200.size a ≤ S128x256x200.size a
  hwx0_6 : ∀ i : grid0.Coords, EltTy.bits .f32 = 32 ∨ (Rect.block (s := S128x256x200) S2x256x200.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x256x1.size a ≤ S128x256x1.size a
  hwx0_7 : ∀ i : grid0.Coords, EltTy.bits .f32 = 32 ∨ (Rect.block (s := S128x256x1) S2x256x1.size (cc0_transform_7 i) (hinb0_7 i)).WholeWords (EltTy.packing .f32)

variable [Facts₀]

def gather_S50000x300_S128x256x1_S128x256x300_2_0_n_n_0_2_1300 : GatherDims S50000x300 S128x256x1 S128x256x300 where
  offsetDims := [2]
  collapsedSliceDims := [0]
  operandBatchingDims := []
  startIndicesBatchingDims := []
  startIndexMap := [0]
  indexVectorDim := 2
  sliceSizes := ![1, 300]
  wf := gather_S50000x300_S128x256x1_S128x256x300_2_0_n_n_0_2_1300_wf
def gather_S52x30_S128x256x1_S128x256x30_2_0_n_n_0_2_130 : GatherDims S52x30 S128x256x1 S128x256x30 where
  offsetDims := [2]
  collapsedSliceDims := [0]
  operandBatchingDims := []
  startIndicesBatchingDims := []
  startIndexMap := [0]
  indexVectorDim := 2
  sliceSizes := ![1, 30]
  wf := gather_S52x30_S128x256x1_S128x256x30_2_0_n_n_0_2_130_wf
def gather_S20x30_S128x256x1_S128x256x30_2_0_n_n_0_2_130 : GatherDims S20x30 S128x256x1 S128x256x30 where
  offsetDims := [2]
  collapsedSliceDims := [0]
  operandBatchingDims := []
  startIndicesBatchingDims := []
  startIndexMap := [0]
  indexVectorDim := 2
  sliceSizes := ![1, 30]
  wf := gather_S20x30_S128x256x1_S128x256x30_2_0_n_n_0_2_130_wf
def dot_S2x256x256_S2x256x360_S2x256x360_2_1_1_2_0_0 : DotDims S2x256x256 S2x256x360 S2x256x360 where
  lhsContracting := [2]
  rhsContracting := [1]
  lhsNonContracting := [1]
  rhsNonContracting := [2]
  lhsBatch := [0]
  rhsBatch := [0]
  wf := dot_S2x256x256_S2x256x360_S2x256x360_2_1_1_2_0_0_wf
def dot_S512x360_S360x200_S512x200_1_0_0_1_n_n : DotDims S512x360 S360x200 S512x200 where
  lhsContracting := [1]
  rhsContracting := [0]
  lhsNonContracting := [0]
  rhsNonContracting := [1]
  lhsBatch := []
  rhsBatch := []
  wf := dot_S512x360_S360x200_S512x200_1_0_0_1_n_n_wf
def dot_S2x256x256_S2x256x200_S2x256x200_2_1_1_2_0_0 : DotDims S2x256x256 S2x256x200 S2x256x200 where
  lhsContracting := [2]
  rhsContracting := [1]
  lhsNonContracting := [1]
  rhsNonContracting := [2]
  lhsBatch := [0]
  rhsBatch := [0]
  wf := dot_S2x256x256_S2x256x200_S2x256x200_2_1_1_2_0_0_wf
def dot_S512x200_S200x200_S512x200_1_0_0_1_n_n : DotDims S512x200 S200x200 S512x200 where
  lhsContracting := [1]
  rhsContracting := [0]
  lhsNonContracting := [0]
  rhsNonContracting := [1]
  lhsBatch := []
  rhsBatch := []
  wf := dot_S512x200_S200x200_S512x200_1_0_0_1_n_n_wf

abbrev win0_0 : Pipeline.Window sig grid0 :=
  Pipeline.Window.ofSpec (Memref.whole main_arg3) S2x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2x256x360.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S360x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x1x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S200x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x1x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S2x256x200.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S2x256x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x256 : Shape := ⟨2, ![128, 256]⟩
abbrev S128x256x256 : Shape := ⟨3, ![128, 256, 256]⟩
abbrev S50000x300 : Shape := ⟨2, ![50000, 300]⟩
abbrev S52x30 : Shape := ⟨2, ![52, 30]⟩
abbrev S20x30 : Shape := ⟨2, ![20, 30]⟩
abbrev S200x360 : Shape := ⟨2, ![200, 360]⟩
abbrev S200 : Shape := ⟨1, ![200]⟩
abbrev S200x200 : Shape := ⟨2, ![200, 200]⟩
abbrev S_ : Shape := ⟨0, ![]⟩
abbrev S128x256x1 : Shape := ⟨3, ![128, 256, 1]⟩
abbrev S128x256x300 : Shape := ⟨3, ![128, 256, 300]⟩
abbrev S128x256x30 : Shape := ⟨3, ![128, 256, 30]⟩
abbrev S128x256x360 : Shape := ⟨3, ![128, 256, 360]⟩
abbrev S128x256x200 : Shape := ⟨3, ![128, 256, 200]⟩
abbrev S1x1x200 : Shape := ⟨3, ![1, 1, 200]⟩

abbrev nBuf : Space → Nat
  | .hbm => 82
  | .vmem => 0
  | .smem => 0
  | _ => 0

abbrev bufTy : (tb : Table) → Fin (tcTables nBuf tb) → BufTy
  | .hbm, ⟨0, _⟩ => ⟨S128x256, .i32⟩
  | .hbm, ⟨1, _⟩ => ⟨S128x256, .i32⟩
  | .hbm, ⟨2, _⟩ => ⟨S128x256, .i32⟩
  | .hbm, ⟨3, _⟩ => ⟨S128x256x256, .f32⟩
  | .hbm, ⟨4, _⟩ => ⟨S50000x300, .f32⟩
  | .hbm, ⟨5, _⟩ => ⟨S52x30, .f32⟩
  | .hbm, ⟨6, _⟩ => ⟨S20x30, .f32⟩
  | .hbm, ⟨7, _⟩ => ⟨S200x360, .f32⟩
  | .hbm, ⟨8, _⟩ => ⟨S200, .f32⟩
  | .hbm, ⟨9, _⟩ => ⟨S200x200, .f32⟩
  | .hbm, ⟨10, _⟩ => ⟨S200, .f32⟩
  | .hbm, ⟨11, _⟩ => ⟨S_, .i32⟩
  | .hbm, ⟨12, _⟩ => ⟨S128x256, .i32⟩
  | .hbm, ⟨13, _⟩ => ⟨S128x256, .i1⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S128x256, .i32⟩
  | .hbm, ⟨18, _⟩ => ⟨S128x256x1, .i32⟩
  | .hbm, ⟨19, _⟩ => ⟨S128x256x300, .f32⟩
  | .hbm, ⟨20, _⟩ => ⟨S_, .i32⟩
  | .hbm, ⟨21, _⟩ => ⟨S128x256, .i32⟩
  | .hbm, ⟨22, _⟩ => ⟨S128x256, .i1⟩
  | .hbm, ⟨23, _⟩ => ⟨S_, .i32⟩
  | .hbm, ⟨24, _⟩ => ⟨S128x256, .i32⟩
  | .hbm, ⟨25, _⟩ => ⟨S128x256, .i32⟩
  | .hbm, ⟨26, _⟩ => ⟨S128x256, .i32⟩
  | .hbm, ⟨27, _⟩ => ⟨S128x256x1, .i32⟩
  | .hbm, ⟨28, _⟩ => ⟨S128x256x30, .f32⟩
  | .hbm, ⟨29, _⟩ => ⟨S_, .i32⟩
  | .hbm, ⟨30, _⟩ => ⟨S128x256, .i32⟩
  | .hbm, ⟨31, _⟩ => ⟨S128x256, .i1⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S128x256x1, .i32⟩
  | .hbm, ⟨37, _⟩ => ⟨S128x256x30, .f32⟩
  | .hbm, ⟨38, _⟩ => ⟨S128x256x360, .f32⟩
  | .hbm, ⟨39, _⟩ => ⟨S_, .f32⟩
  | .hbm, ⟨40, _⟩ => ⟨S128x256, .f32⟩
  | .hbm, ⟨41, _⟩ => ⟨S128x256x1, .f32⟩
  | .hbm, ⟨42, _⟩ => ⟨S_, .f32⟩
  | .hbm, ⟨43, _⟩ => ⟨S128x256x1, .f32⟩
  | .hbm, ⟨44, _⟩ => ⟨S128x256x1, .f32⟩
  | .hbm, ⟨45, _⟩ => ⟨S_, .f32⟩
  | .hbm, ⟨46, _⟩ => ⟨S128x256, .f32⟩
  | .hbm, ⟨47, _⟩ => ⟨S_, .f32⟩
  | .hbm, ⟨48, _⟩ => ⟨S128x256, .f32⟩
  | .hbm, ⟨49, _⟩ => ⟨S128x256, .f32⟩
  | .hbm, ⟨50, _⟩ => ⟨S_, .f32⟩
  | .hbm, ⟨51, _⟩ => ⟨S128x256, .f32⟩
  | .hbm, ⟨52, _⟩ => ⟨S128x256, .i1⟩
  | .hbm, ⟨53, _⟩ => ⟨S128x256x1, .i1⟩
  | .hbm, ⟨54, _⟩ => ⟨S128x256x360, .f32⟩
  | .hbm, ⟨55, _⟩ => ⟨S128x256x360, .f32⟩
  | .hbm, ⟨56, _⟩ => ⟨S128x256x200, .f32⟩
  | .hbm, ⟨57, _⟩ => ⟨S_, .f32⟩
  | .hbm, ⟨58, _⟩ => ⟨S200, .f32⟩
  | .hbm, ⟨59, _⟩ => ⟨S200, .f32⟩
  | .hbm, ⟨60, _⟩ => ⟨S1x1x200, .f32⟩
  | .hbm, ⟨61, _⟩ => ⟨S128x256x200, .f32⟩
  | .hbm, ⟨62, _⟩ => ⟨S128x256x200, .f32⟩
  | .hbm, ⟨63, _⟩ => ⟨S128x256x200, .f32⟩
  | .hbm, ⟨64, _⟩ => ⟨S128x256x200, .f32⟩
  | .hbm, ⟨65, _⟩ => ⟨S_, .f32⟩
  | .hbm, ⟨66, _⟩ => ⟨S128x256x200, .f32⟩
  | .hbm, ⟨67, _⟩ => ⟨S128x256x200, .f32⟩
  | .hbm, ⟨68, _⟩ => ⟨S128x256x200, .f32⟩
  | .hbm, ⟨69, _⟩ => ⟨S128x256x200, .f32⟩
  | .hbm, ⟨70, _⟩ => ⟨S128x256x200, .f32⟩
  | .hbm, ⟨71, _⟩ => ⟨S_, .f32⟩
  | .hbm, ⟨72, _⟩ => ⟨S200, .f32⟩
  | .hbm, ⟨73, _⟩ => ⟨S200, .f32⟩
  | .hbm, ⟨74, _⟩ => ⟨S1x1x200, .f32⟩
  | .hbm, ⟨75, _⟩ => ⟨S128x256x200, .f32⟩
  | .hbm, ⟨76, _⟩ => ⟨S128x256x200, .f32⟩
  | .hbm, ⟨77, _⟩ => ⟨S128x256x200, .f32⟩
  | .hbm, ⟨78, _⟩ => ⟨S128x256x200, .f32⟩
  | .hbm, ⟨79, _⟩ => ⟨S_, .f32⟩
  | .hbm, ⟨80, _⟩ => ⟨S128x256x200, .f32⟩
  | .hbm, ⟨81, _⟩ => ⟨S128x256x200, .f32⟩
  | _, _ => ⟨S128x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call0_cst : Ref sig .tc := ⟨.hbm, 65, rfl⟩
abbrev main_call0_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_cst : Ref sig .tc := ⟨.hbm, 79, rfl⟩
abbrev main_call1_v0 : Ref sig .tc := ⟨.hbm, 80, rfl⟩
abbrev main_v53 : Ref sig .tc := ⟨.hbm, 81, rfl⟩

abbrev nD : Nat := 1
abbrev τ : Topo := Topo.v7x

variable {F : FTy → Type} [FloatOps F]

class Facts₀ : Prop where
  bcast_S_S128x256 : S_.BroadcastsInDim S128x256 (![] : Fin 0 → Fin S128x256.rank)
  bcast_S128x256_S128x256x1_0_1 : S128x256.BroadcastsInDim S128x256x1 (![0, 1] : Fin 2 → Fin S128x256x1.rank)
  concatenates_S128x256x300_S128x256x30_S128x256x30_S128x256x360_d2 : Shape.Concatenates [S128x256x300, S128x256x30, S128x256x30] S128x256x360 2
  reducesTo_S128x256x256_S128x256_d2 : S128x256x256.ReducesTo [2] S128x256
  h_S_ : 0 < S_.numel
  bcast_S_S128x256x1 : S_.BroadcastsInDim S128x256x1 (![] : Fin 0 → Fin S128x256x1.rank)
  reducesTo_S128x256x256_S128x256_d1 : S128x256x256.ReducesTo [1] S128x256
  bcast_S_S200 : S_.BroadcastsInDim S200 (![] : Fin 0 → Fin S200.rank)
  bcast_S200_S1x1x200_2 : S200.BroadcastsInDim S1x1x200 (![2] : Fin 1 → Fin S1x1x200.rank)
  bcast_S1x1x200_S128x256x200_0_1_2 : S1x1x200.BroadcastsInDim S128x256x200 (![0, 1, 2] : Fin 3 → Fin S128x256x200.rank)
  bcast_S128x256x1_S128x256x200_0_1_2 : S128x256x1.BroadcastsInDim S128x256x200 (![0, 1, 2] : Fin 3 → Fin S128x256x200.rank)
  bcast_S_S128x256x200 : S_.BroadcastsInDim S128x256x200 (![] : Fin 0 → Fin S128x256x200.rank)
  gather_S50000x300_S128x256x1_S128x256x300_2_0_n_n_0_2_1300_wf : GatherDims.WF S50000x300 S128x256x1 S128x256x300 [2] [0] [] [0] [] 2 ![1, 300]
  gather_S52x30_S128x256x1_S128x256x30_2_0_n_n_0_2_130_wf : GatherDims.WF S52x30 S128x256x1 S128x256x30 [2] [0] [] [0] [] 2 ![1, 30]
  gather_S20x30_S128x256x1_S128x256x30_2_0_n_n_0_2_130_wf : GatherDims.WF S20x30 S128x256x1 S128x256x30 [2] [0] [] [0] [] 2 ![1, 30]
  dot_S128x256x256_S128x256x360_S128x256x360_2_1_1_2_0_0_wf : DotDims.WF S128x256x256 S128x256x360 S128x256x360 [2] [1] [1] [2] [0] [0]
  dot_S128x256x360_S200x360_S128x256x200_2_1_01_0_n_n_wf : DotDims.WF S128x256x360 S200x360 S128x256x200 [2] [1] [0, 1] [0] [] []
  dot_S128x256x256_S128x256x200_S128x256x200_2_1_1_2_0_0_wf : DotDims.WF S128x256x256 S128x256x200 S128x256x200 [2] [1] [1] [2] [0] [0]
  dot_S128x256x200_S200x200_S128x256x200_2_1_01_0_n_n_wf : DotDims.WF S128x256x200 S200x200 S128x256x200 [2] [1] [0, 1] [0] [] []

variable [Facts₀]

def gather_S50000x300_S128x256x1_S128x256x300_2_0_n_n_0_2_1300 : GatherDims S50000x300 S128x256x1 S128x256x300 where
  offsetDims := [2]
  collapsedSliceDims := [0]
  operandBatchingDims := []
  startIndicesBatchingDims := []
  startIndexMap := [0]
  indexVectorDim := 2
  sliceSizes := ![1, 300]
  wf := gather_S50000x300_S128x256x1_S128x256x300_2_0_n_n_0_2_1300_wf
def gather_S52x30_S128x256x1_S128x256x30_2_0_n_n_0_2_130 : GatherDims S52x30 S128x256x1 S128x256x30 where
  offsetDims := [2]
  collapsedSliceDims := [0]
  operandBatchingDims := []
  startIndicesBatchingDims := []
  startIndexMap := [0]
  indexVectorDim := 2
  sliceSizes := ![1, 30]
  wf := gather_S52x30_S128x256x1_S128x256x30_2_0_n_n_0_2_130_wf
def gather_S20x30_S128x256x1_S128x256x30_2_0_n_n_0_2_130 : GatherDims S20x30 S128x256x1 S128x256x30 where
  offsetDims := [2]
  collapsedSliceDims := [0]
  operandBatchingDims := []
  startIndicesBatchingDims := []
  startIndexMap := [0]
  indexVectorDim := 2
  sliceSizes := ![1, 30]
  wf := gather_S20x30_S128x256x1_S128x256x30_2_0_n_n_0_2_130_wf
def dot_S128x256x256_S128x256x360_S128x256x360_2_1_1_2_0_0 : DotDims S128x256x256 S128x256x360 S128x256x360 where
  lhsContracting := [2]
  rhsContracting := [1]
  lhsNonContracting := [1]
  rhsNonContracting := [2]
  lhsBatch := [0]
  rhsBatch := [0]
  wf := dot_S128x256x256_S128x256x360_S128x256x360_2_1_1_2_0_0_wf
def dot_S128x256x360_S200x360_S128x256x200_2_1_01_0_n_n : DotDims S128x256x360 S200x360 S128x256x200 where
  lhsContracting := [2]
  rhsContracting := [1]
  lhsNonContracting := [0, 1]
  rhsNonContracting := [0]
  lhsBatch := []
  rhsBatch := []
  wf := dot_S128x256x360_S200x360_S128x256x200_2_1_01_0_n_n_wf
def dot_S128x256x256_S128x256x200_S128x256x200_2_1_1_2_0_0 : DotDims S128x256x256 S128x256x200 S128x256x200 where
  lhsContracting := [2]
  rhsContracting := [1]
  lhsNonContracting := [1]
  rhsNonContracting := [2]
  lhsBatch := [0]
  rhsBatch := [0]
  wf := dot_S128x256x256_S128x256x200_S128x256x200_2_1_1_2_0_0_wf
def dot_S128x256x200_S200x200_S128x256x200_2_1_01_0_n_n : DotDims S128x256x200 S200x200 S128x256x200 where
  lhsContracting := [2]
  rhsContracting := [1]
  lhsNonContracting := [0, 1]
  rhsNonContracting := [0]
  lhsBatch := []
  rhsBatch := []
  wf := dot_S128x256x200_S200x200_S128x256x200_2_1_01_0_n_n_wf

class Facts : Prop extends Facts₀ where

variable [Facts]
-- ==== Proof.KernelFrame.lean ====
/-
  The frame of `Kernel`: under any launch memory the program runs to the end without a fault and leaves its eleven
  argument arrays as they were, and every array of its one pipelined region ends at what the region's proof data say.

  @main is thirty-two host lines (index normalisation, three row gathers, their concatenation along the feature axis,
  two transposes, two reshapes), the region over a grid of 64 points, and three host lines after it (the mask's
  threshold).  The region's body loads its six input blocks whole, computes, and overwrites its two output blocks
  whole; it keeps nothing between points.  So the proof data are the simplest there are: after the body at point `t`
  an input's staging buffer holds the block of its array at `t`, an output's holds the body's result on those blocks;
  an input found unfetched at a point holds the same block as at the point before, because its index did not move.
-/
import proofs.«139517_j65077344469279_1_alg».proof.Proof.Gen.Kernel.Launch
import proofs.«139517_j65077344469279_1_alg».proof.Proof.Gen.Kernel.Skeleton
import proofs.«139517_j65077344469279_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the launch memory after the host lines before it. -/
abbrev V0 (c : Dev nD) : Valuation τ sig (Elt F) := StableHlo.after (List.flatten [hostOps0]) (fun b => m (c, b))
/-- The same at one buffer. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only unscoped buffers of the core, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's eight arrays: each writes its own result buffer. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host line -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From the region's run to the frame claim -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 0).trans (((dats 0 c).arrAt_in 0 rfl _).trans ((hA c 0).trans (V_main_arg3 m c))),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

/-! ## The body's accesses: every load and store is of a whole block -/

abbrev rAdj : Rect S2x256x256 := Rect.unit (s := S2x256x256) ![0, 0, 0] S2x256x256.size inb_S2x256x256_S2x256x256_0_0_0
abbrev rFeat : Rect S2x256x360 := Rect.unit (s := S2x256x360) ![0, 0, 0] S2x256x360.size inb_S2x256x360_S2x256x360_0_0_0
abbrev rW0 : Rect S360x200 := Rect.unit (s := S360x200) ![0, 0] S360x200.size inb_S360x200_S360x200_0_0
abbrev rBias : Rect S1x1x200 := Rect.unit (s := S1x1x200) ![0, 0, 0] S1x1x200.size inb_S1x1x200_S1x1x200_0_0_0
abbrev rW1 : Rect S200x200 := Rect.unit (s := S200x200) ![0, 0] S200x200.size inb_S200x200_S200x200_0_0
abbrev rOut : Rect S2x256x200 := Rect.unit (s := S2x256x200) ![0, 0, 0] S2x256x200.size inb_S2x256x200_S2x256x200_0_0_0
abbrev rMask : Rect S2x256x1 := Rect.unit (s := S2x256x1) ![0, 0, 0] S2x256x1.size inb_S2x256x1_S2x256x1_0_0_0

/-! ## What the body leaves in the two output buffers -/

/-- The feature output's buffer after the body: the second layer's result of the six input blocks. -/
def outFeat (x0 : Vec F S2x256x256 .f32) (x1 : Vec F S2x256x360 .f32) (x2 : Vec F S360x200 .f32) (x3 : Vec F S1x1x200 .f32) (x4 : Vec F S200x200 .f32) (x5 : Vec F S1x1x200 .f32) : Vec F S2x256x200 .f32 :=
  View.canon [⟨rOut, k0_pay1 (k0_pay3 (View.ld x0 rAdj)) (k0_pay5 (View.ld x0 rAdj) (View.ld x1 rFeat) (View.ld x2 rW0) (View.ld x3 rBias)) (View.ld x4 rW1) (View.ld x5 rBias)⟩]

/-- The mask output's buffer after the body: a function of the adjacency block alone. -/
def outMask (x0 : Vec F S2x256x256 .f32) : Vec F S2x256x1 .f32 :=
  View.canon [⟨rMask, k0_pay4 (View.ld x0 rAdj)⟩]

theorem coverFeat (p0 : Vec F S2x256x200 .f32) (y : S2x256x200.Idx) :
    ∃ pc ∈ ([⟨rOut, p0⟩] : List (View.Piece (Elt F) S2x256x200 .f32)), y ∈ pc.1.set :=
  View.cover_of_tiled [⟨rOut, p0⟩] S2x256x200.size (by rfl) y
theorem coverMask (p0 : Vec F S2x256x1 .f32) (y : S2x256x1.Idx) :
    ∃ pc ∈ ([⟨rMask, p0⟩] : List (View.Piece (Elt F) S2x256x1 .f32)), y ∈ pc.1.set :=
  View.cover_of_tiled [⟨rMask, p0⟩] S2x256x1.size (by rfl) y

/-! ## The body's triple -/

set_option maxHeartbeats 1000000 in
/-- On whole staging buffers, the inputs' at known contents and the outputs' at any, the body runs to the end, leaves
    the inputs' as they were and the outputs' at `outFeat` and `outMask` of the inputs'. -/
theorem sound_kernel (c : Dev nD) (E : Set ℕ) (i : grid0.Coords) (arg1 : Memref sig .tc .vmem S2x256x256 .f32) (harg1 : arg1.IsWhole) (arg2 : Memref sig .tc .vmem S2x256x360 .f32) (harg2 : arg2.IsWhole) (arg3 : Memref sig .tc .vmem S360x200 .f32) (harg3 : arg3.IsWhole) (arg4 : Memref sig .tc .vmem S1x1x200 .f32) (harg4 : arg4.IsWhole) (arg5 : Memref sig .tc .vmem S200x200 .f32) (harg5 : arg5.IsWhole) (arg6 : Memref sig .tc .vmem S1x1x200 .f32) (harg6 : arg6.IsWhole) (arg7 : Memref sig .tc .vmem S2x256x200 .f32) (harg7 : arg7.IsWhole) (arg8 : Memref sig .tc .vmem S2x256x1 .f32) (harg8 : arg8.IsWhole)
    (x0 : Vec F S2x256x256 .f32) (x1 : Vec F S2x256x360 .f32) (x2 : Vec F S360x200 .f32) (x3 : Vec F S1x1x200 .f32) (x4 : Vec F S200x200 .f32) (x5 : Vec F S1x1x200 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outFeat x0 x1 x2 x3 x4 x5) ∗ owns (c : Thread nD τ) arg8 fullShare (outMask x0)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverFeat _)
  iexists _; isplitr
  swap; · iexact H7
  ipureintro
  try dsimp only
  exact View.read_writes_eq_canon _ _ _ (coverMask _)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outFeat (iblk m c 0 t) (iblk m c 1 t) (iblk m c 2 t) (iblk m c 3 t) (iblk m c 4 t) (iblk m c 5 t)
    | ⟨7, _⟩ => outMask (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_feat (c : Dev nD) (t : Fin cfg0.N) : (dats m 0 c).after 6 t = outFeat (iblk m c 0 t) (iblk m c 1 t) (iblk m c 2 t) (iblk m c 3 t) (iblk m c 4 t) (iblk m c 5 t) := by dsimp only [dats]
theorem after_mask (c : Dev nD) (t : Fin cfg0.N) : (dats m 0 c).after 7 t = outMask (iblk m c 0 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_feat, after_mask]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end each array of the region holds what the
    proof data compute and every other unscoped buffer what the host lines after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame claim, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Fr

end
-- ==== Proof.KernelIdealFrame.lean ====
/-
  The frame of `KernelIdeal`: under any launch memory the program runs to the end without a fault and leaves its eleven
  argument arrays as they were, and every array of its one pipelined region ends at what the region's proof data say.

  @main is thirty-two host lines (index normalisation, three row gathers, their concatenation along the feature axis,
  two transposes, two reshapes), the region over a grid of 64 points, and three host lines after it (the mask's
  threshold).  The region's body loads its six input blocks whole, computes, and overwrites its two output blocks
  whole; it keeps nothing between points.  So the proof data are the simplest there are: after the body at point `t`
  an input's staging buffer holds the block of its array at `t`, an output's holds the body's result on those blocks;
  an input found unfetched at a point holds the same block as at the point before, because its index did not move.
-/
import proofs.«139517_j65077344469279_1_alg».proof.Proof.Gen.KernelIdeal.Launch
import proofs.«139517_j65077344469279_1_alg».proof.Proof.Gen.KernelIdeal.Skeleton
import proofs.«139517_j65077344469279_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the launch memory after the host lines before it. -/
abbrev V0 (c : Dev nD) : Valuation τ sig (Elt F) := StableHlo.after (List.flatten [hostOps0]) (fun b => m (c, b))
/-- The same at one buffer. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only unscoped buffers of the core, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's eight arrays: each writes its own result buffer. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host line -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From the region's run to the frame claim -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 0).trans (((dats 0 c).arrAt_in 0 rfl _).trans ((hA c 0).trans (V_main_arg3 m c))),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

/-! ## The body's accesses: every load and store is of a whole block -/

abbrev rAdj : Rect S2x256x256 := Rect.unit (s := S2x256x256) ![0, 0, 0] S2x256x256.size inb_S2x256x256_S2x256x256_0_0_0
abbrev rFeat : Rect S2x256x360 := Rect.unit (s := S2x256x360) ![0, 0, 0] S2x256x360.size inb_S2x256x360_S2x256x360_0_0_0
abbrev rW0 : Rect S360x200 := Rect.unit (s := S360x200) ![0, 0] S360x200.size inb_S360x200_S360x200_0_0
abbrev rBias : Rect S1x1x200 := Rect.unit (s := S1x1x200) ![0, 0, 0] S1x1x200.size inb_S1x1x200_S1x1x200_0_0_0
abbrev rW1 : Rect S200x200 := Rect.unit (s := S200x200) ![0, 0] S200x200.size inb_S200x200_S200x200_0_0
abbrev rOut : Rect S2x256x200 := Rect.unit (s := S2x256x200) ![0, 0, 0] S2x256x200.size inb_S2x256x200_S2x256x200_0_0_0
abbrev rMask : Rect S2x256x1 := Rect.unit (s := S2x256x1) ![0, 0, 0] S2x256x1.size inb_S2x256x1_S2x256x1_0_0_0

/-! ## What the body leaves in the two output buffers -/

/-- The feature output's buffer after the body: the second layer's result of the six input blocks. -/
def outFeat (x0 : Vec F S2x256x256 .f32) (x1 : Vec F S2x256x360 .f32) (x2 : Vec F S360x200 .f32) (x3 : Vec F S1x1x200 .f32) (x4 : Vec F S200x200 .f32) (x5 : Vec F S1x1x200 .f32) : Vec F S2x256x200 .f32 :=
  View.canon [⟨rOut, k0_pay1 (k0_pay3 (View.ld x0 rAdj)) (k0_pay5 (View.ld x0 rAdj) (View.ld x1 rFeat) (View.ld x2 rW0) (View.ld x3 rBias)) (View.ld x4 rW1) (View.ld x5 rBias)⟩]

/-- The mask output's buffer after the body: a function of the adjacency block alone. -/
def outMask (x0 : Vec F S2x256x256 .f32) : Vec F S2x256x1 .f32 :=
  View.canon [⟨rMask, k0_pay4 (View.ld x0 rAdj)⟩]

theorem coverFeat (p0 : Vec F S2x256x200 .f32) (y : S2x256x200.Idx) :
    ∃ pc ∈ ([⟨rOut, p0⟩] : List (View.Piece (Elt F) S2x256x200 .f32)), y ∈ pc.1.set :=
  View.cover_of_tiled [⟨rOut, p0⟩] S2x256x200.size (by rfl) y
theorem coverMask (p0 : Vec F S2x256x1 .f32) (y : S2x256x1.Idx) :
    ∃ pc ∈ ([⟨rMask, p0⟩] : List (View.Piece (Elt F) S2x256x1 .f32)), y ∈ pc.1.set :=
  View.cover_of_tiled [⟨rMask, p0⟩] S2x256x1.size (by rfl) y

/-! ## The body's triple -/

set_option maxHeartbeats 1000000 in
/-- On whole staging buffers, the inputs' at known contents and the outputs' at any, the body runs to the end, leaves
    the inputs' as they were and the outputs' at `outFeat` and `outMask` of the inputs'. -/
theorem sound_kernel (c : Dev nD) (E : Set ℕ) (i : grid0.Coords) (arg1 : Memref sig .tc .vmem S2x256x256 .f32) (harg1 : arg1.IsWhole) (arg2 : Memref sig .tc .vmem S2x256x360 .f32) (harg2 : arg2.IsWhole) (arg3 : Memref sig .tc .vmem S360x200 .f32) (harg3 : arg3.IsWhole) (arg4 : Memref sig .tc .vmem S1x1x200 .f32) (harg4 : arg4.IsWhole) (arg5 : Memref sig .tc .vmem S200x200 .f32) (harg5 : arg5.IsWhole) (arg6 : Memref sig .tc .vmem S1x1x200 .f32) (harg6 : arg6.IsWhole) (arg7 : Memref sig .tc .vmem S2x256x200 .f32) (harg7 : arg7.IsWhole) (arg8 : Memref sig .tc .vmem S2x256x1 .f32) (harg8 : arg8.IsWhole)
    (x0 : Vec F S2x256x256 .f32) (x1 : Vec F S2x256x360 .f32) (x2 : Vec F S360x200 .f32) (x3 : Vec F S1x1x200 .f32) (x4 : Vec F S200x200 .f32) (x5 : Vec F S1x1x200 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outFeat x0 x1 x2 x3 x4 x5) ∗ owns (c : Thread nD τ) arg8 fullShare (outMask x0)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverFeat _)
  iexists _; isplitr
  swap; · iexact H7
  ipureintro
  try dsimp only
  exact View.read_writes_eq_canon _ _ _ (coverMask _)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outFeat (iblk m c 0 t) (iblk m c 1 t) (iblk m c 2 t) (iblk m c 3 t) (iblk m c 4 t) (iblk m c 5 t)
    | ⟨7, _⟩ => outMask (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_feat (c : Dev nD) (t : Fin cfg0.N) : (dats m 0 c).after 6 t = outFeat (iblk m c 0 t) (iblk m c 1 t) (iblk m c 2 t) (iblk m c 3 t) (iblk m c 4 t) (iblk m c 5 t) := by dsimp only [dats]
theorem after_mask (c : Dev nD) (t : Fin cfg0.N) : (dats m 0 c).after 7 t = outMask (iblk m c 0 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_feat, after_mask]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end each array of the region holds what the
    proof data compute and every other unscoped buffer what the host lines after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame claim, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Fr

end
-- ==== Proof.BlockProducts.lean ====
/-
  The block's products and sums at the extended reals, entry by entry.

  On a block of two graphs the body forms, per layer, the batched product adjacency × features (a sum over the 256
  neighbours `j`) and, after the rows of the two graphs are laid one under the other (512 rows), a plain product with
  the dense map (a sum over the input features `d`).  Into a zero accumulator each is just that sum; the formats the
  operands are narrowed to do not matter to the extended reals.  The degree sums are sums over one axis of the adjacency
  block: over `j` for a row, over `i` for a column.
-/
import proofs.«139517_j65077344469279_1_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Blk

open Cert.KernelIdeal Cert.KernelIdeal.Gen Idealize.ShloMosaic Idealize.ShloMosaic.ValueIdx

/-! ### adjacency × features at width 360: which entries a product term reads -/

theorem bmm360_l0 (i : S2x256x360.Idx) (q : dot_S2x256x256_S2x256x360_S2x256x360_2_1_1_2_0_0.contr.Idx) : (dot_S2x256x256_S2x256x360_S2x256x360_2_1_1_2_0_0.lhsIdx i q 0).val = (i 0).val := by
  unfold DotDims.lhsIdx
  rw [dif_pos (show (0 : Fin S2x256x256.rank) ∈ dot_S2x256x256_S2x256x360_S2x256x360_2_1_1_2_0_0.lhsBatch by decide)]
  rfl
theorem bmm360_l1 (i : S2x256x360.Idx) (q : dot_S2x256x256_S2x256x360_S2x256x360_2_1_1_2_0_0.contr.Idx) : (dot_S2x256x256_S2x256x360_S2x256x360_2_1_1_2_0_0.lhsIdx i q 1).val = (i 1).val := by
  unfold DotDims.lhsIdx
  rw [dif_neg (show ¬(1 : Fin S2x256x256.rank) ∈ dot_S2x256x256_S2x256x360_S2x256x360_2_1_1_2_0_0.lhsBatch by decide), dif_pos (show (1 : Fin S2x256x256.rank) ∈ dot_S2x256x256_S2x256x360_S2x256x360_2_1_1_2_0_0.lhsNonContracting by decide)]
  rfl
theorem bmm360_l2 (i : S2x256x360.Idx) (q : dot_S2x256x256_S2x256x360_S2x256x360_2_1_1_2_0_0.contr.Idx) : (dot_S2x256x256_S2x256x360_S2x256x360_2_1_1_2_0_0.lhsIdx i q 2).val = (q ⟨0, by decide⟩).val :=
  dot_S2x256x256_S2x256x360_S2x256x360_2_1_1_2_0_0.lhsIdx_val_of_single rfl i q
theorem bmm360_r0 (i : S2x256x360.Idx) (q : dot_S2x256x256_S2x256x360_S2x256x360_2_1_1_2_0_0.contr.Idx) : (dot_S2x256x256_S2x256x360_S2x256x360_2_1_1_2_0_0.rhsIdx i q 0).val = (i 0).val := by
  unfold DotDims.rhsIdx
  rw [dif_pos (show (0 : Fin S2x256x360.rank) ∈ dot_S2x256x256_S2x256x360_S2x256x360_2_1_1_2_0_0.rhsBatch by decide)]
  rfl
theorem bmm360_r1 (i : S2x256x360.Idx) (q : dot_S2x256x256_S2x256x360_S2x256x360_2_1_1_2_0_0.contr.Idx) : (dot_S2x256x256_S2x256x360_S2x256x360_2_1_1_2_0_0.rhsIdx i q 1).val = (q ⟨0, by decide⟩).val :=
  dot_S2x256x256_S2x256x360_S2x256x360_2_1_1_2_0_0.rhsIdx_val_of_single rfl i q
theorem bmm360_r2 (i : S2x256x360.Idx) (q : dot_S2x256x256_S2x256x360_S2x256x360_2_1_1_2_0_0.contr.Idx) : (dot_S2x256x256_S2x256x360_S2x256x360_2_1_1_2_0_0.rhsIdx i q 2).val = (i 2).val := by
  unfold DotDims.rhsIdx
  rw [dif_neg (show ¬(2 : Fin S2x256x360.rank) ∈ dot_S2x256x256_S2x256x360_S2x256x360_2_1_1_2_0_0.rhsBatch by decide), dif_pos (show (2 : Fin S2x256x360.rank) ∈ dot_S2x256x256_S2x256x360_S2x256x360_2_1_1_2_0_0.rhsNonContracting by decide)]
  rfl

/-- The batched product on a block, entry `(b, i, d)`: row `i` of graph `b`'s adjacency against column `d` of its features. -/
theorem bmm360_apply {φ₁ φ₂ : FTy} (l : FVec Ideal S2x256x256 φ₁) (r : FVec Ideal S2x256x360 φ₂) (b : Fin 2) (i : Fin 256) (d : Fin 360) :
    matmul dot_S2x256x256_S2x256x360_S2x256x360_2_1_1_2_0_0 none l r (constant S2x256x360 .f32 0x00000000#32) (ix3 b i d)
      = ∑ j : Fin 256, l (ix3 b i j) * r (ix3 b j d) := by
  simp only [matmul]
  rw [Ideal.matmul_constant_zero_apply, ← Equiv.sum_comp (contrEquiv1 dot_S2x256x256_S2x256x360_S2x256x360_2_1_1_2_0_0 256 rfl rfl).symm]
  refine Finset.sum_congr rfl fun k _ => ?_
  have hk := contrEquiv1_symm_val dot_S2x256x256_S2x256x360_S2x256x360_2_1_1_2_0_0 256 rfl rfl k
  have el : dot_S2x256x256_S2x256x360_S2x256x360_2_1_1_2_0_0.lhsIdx (ix3 b i d) ((contrEquiv1 dot_S2x256x256_S2x256x360_S2x256x360_2_1_1_2_0_0 256 rfl rfl).symm k) = ix3 b i k := funext fun a => Fin.ext (by
    match a with
    | ⟨0, _⟩ => exact bmm360_l0 _ _
    | ⟨1, _⟩ => exact bmm360_l1 _ _
    | ⟨2, _⟩ => exact (bmm360_l2 _ _).trans hk)
  have er : dot_S2x256x256_S2x256x360_S2x256x360_2_1_1_2_0_0.rhsIdx (ix3 b i d) ((contrEquiv1 dot_S2x256x256_S2x256x360_S2x256x360_2_1_1_2_0_0 256 rfl rfl).symm k) = ix3 b k d := funext fun a => Fin.ext (by
    match a with
    | ⟨0, _⟩ => exact bmm360_r0 _ _
    | ⟨1, _⟩ => exact (bmm360_r1 _ _).trans hk
    | ⟨2, _⟩ => exact bmm360_r2 _ _)
  rw [el, er]

/-! ### adjacency × features at width 200: which entries a product term reads -/

theorem bmm200_l0 (i : S2x256x200.Idx) (q : dot_S2x256x256_S2x256x200_S2x256x200_2_1_1_2_0_0.contr.Idx) : (dot_S2x256x256_S2x256x200_S2x256x200_2_1_1_2_0_0.lhsIdx i q 0).val = (i 0).val := by
  unfold DotDims.lhsIdx
  rw [dif_pos (show (0 : Fin S2x256x256.rank) ∈ dot_S2x256x256_S2x256x200_S2x256x200_2_1_1_2_0_0.lhsBatch by decide)]
  rfl
theorem bmm200_l1 (i : S2x256x200.Idx) (q : dot_S2x256x256_S2x256x200_S2x256x200_2_1_1_2_0_0.contr.Idx) : (dot_S2x256x256_S2x256x200_S2x256x200_2_1_1_2_0_0.lhsIdx i q 1).val = (i 1).val := by
  unfold DotDims.lhsIdx
  rw [dif_neg (show ¬(1 : Fin S2x256x256.rank) ∈ dot_S2x256x256_S2x256x200_S2x256x200_2_1_1_2_0_0.lhsBatch by decide), dif_pos (show (1 : Fin S2x256x256.rank) ∈ dot_S2x256x256_S2x256x200_S2x256x200_2_1_1_2_0_0.lhsNonContracting by decide)]
  rfl
theorem bmm200_l2 (i : S2x256x200.Idx) (q : dot_S2x256x256_S2x256x200_S2x256x200_2_1_1_2_0_0.contr.Idx) : (dot_S2x256x256_S2x256x200_S2x256x200_2_1_1_2_0_0.lhsIdx i q 2).val = (q ⟨0, by decide⟩).val :=
  dot_S2x256x256_S2x256x200_S2x256x200_2_1_1_2_0_0.lhsIdx_val_of_single rfl i q
theorem bmm200_r0 (i : S2x256x200.Idx) (q : dot_S2x256x256_S2x256x200_S2x256x200_2_1_1_2_0_0.contr.Idx) : (dot_S2x256x256_S2x256x200_S2x256x200_2_1_1_2_0_0.rhsIdx i q 0).val = (i 0).val := by
  unfold DotDims.rhsIdx
  rw [dif_pos (show (0 : Fin S2x256x200.rank) ∈ dot_S2x256x256_S2x256x200_S2x256x200_2_1_1_2_0_0.rhsBatch by decide)]
  rfl
theorem bmm200_r1 (i : S2x256x200.Idx) (q : dot_S2x256x256_S2x256x200_S2x256x200_2_1_1_2_0_0.contr.Idx) : (dot_S2x256x256_S2x256x200_S2x256x200_2_1_1_2_0_0.rhsIdx i q 1).val = (q ⟨0, by decide⟩).val :=
  dot_S2x256x256_S2x256x200_S2x256x200_2_1_1_2_0_0.rhsIdx_val_of_single rfl i q
theorem bmm200_r2 (i : S2x256x200.Idx) (q : dot_S2x256x256_S2x256x200_S2x256x200_2_1_1_2_0_0.contr.Idx) : (dot_S2x256x256_S2x256x200_S2x256x200_2_1_1_2_0_0.rhsIdx i q 2).val = (i 2).val := by
  unfold DotDims.rhsIdx
  rw [dif_neg (show ¬(2 : Fin S2x256x200.rank) ∈ dot_S2x256x256_S2x256x200_S2x256x200_2_1_1_2_0_0.rhsBatch by decide), dif_pos (show (2 : Fin S2x256x200.rank) ∈ dot_S2x256x256_S2x256x200_S2x256x200_2_1_1_2_0_0.rhsNonContracting by decide)]
  rfl

/-- The batched product on a block, entry `(b, i, d)`: row `i` of graph `b`'s adjacency against column `d` of its features. -/
theorem bmm200_apply {φ₁ φ₂ : FTy} (l : FVec Ideal S2x256x256 φ₁) (r : FVec Ideal S2x256x200 φ₂) (b : Fin 2) (i : Fin 256) (d : Fin 200) :
    matmul dot_S2x256x256_S2x256x200_S2x256x200_2_1_1_2_0_0 none l r (constant S2x256x200 .f32 0x00000000#32) (ix3 b i d)
      = ∑ j : Fin 256, l (ix3 b i j) * r (ix3 b j d) := by
  simp only [matmul]
  rw [Ideal.matmul_constant_zero_apply, ← Equiv.sum_comp (contrEquiv1 dot_S2x256x256_S2x256x200_S2x256x200_2_1_1_2_0_0 256 rfl rfl).symm]
  refine Finset.sum_congr rfl fun k _ => ?_
  have hk := contrEquiv1_symm_val dot_S2x256x256_S2x256x200_S2x256x200_2_1_1_2_0_0 256 rfl rfl k
  have el : dot_S2x256x256_S2x256x200_S2x256x200_2_1_1_2_0_0.lhsIdx (ix3 b i d) ((contrEquiv1 dot_S2x256x256_S2x256x200_S2x256x200_2_1_1_2_0_0 256 rfl rfl).symm k) = ix3 b i k := funext fun a => Fin.ext (by
    match a with
    | ⟨0, _⟩ => exact bmm200_l0 _ _
    | ⟨1, _⟩ => exact bmm200_l1 _ _
    | ⟨2, _⟩ => exact (bmm200_l2 _ _).trans hk)
  have er : dot_S2x256x256_S2x256x200_S2x256x200_2_1_1_2_0_0.rhsIdx (ix3 b i d) ((contrEquiv1 dot_S2x256x256_S2x256x200_S2x256x200_2_1_1_2_0_0 256 rfl rfl).symm k) = ix3 b k d := funext fun a => Fin.ext (by
    match a with
    | ⟨0, _⟩ => exact bmm200_r0 _ _
    | ⟨1, _⟩ => exact (bmm200_r1 _ _).trans hk
    | ⟨2, _⟩ => exact bmm200_r2 _ _)
  rw [el, er]

/-! ### rows × dense map at width 360 -/

theorem mm360_l0 (i : S512x200.Idx) (q : dot_S512x360_S360x200_S512x200_1_0_0_1_n_n.contr.Idx) : (dot_S512x360_S360x200_S512x200_1_0_0_1_n_n.lhsIdx i q 0).val = (i 0).val := by
  unfold DotDims.lhsIdx
  rw [dif_neg (show ¬(0 : Fin S512x360.rank) ∈ dot_S512x360_S360x200_S512x200_1_0_0_1_n_n.lhsBatch by decide), dif_pos (show (0 : Fin S512x360.rank) ∈ dot_S512x360_S360x200_S512x200_1_0_0_1_n_n.lhsNonContracting by decide)]
  rfl
theorem mm360_l1 (i : S512x200.Idx) (q : dot_S512x360_S360x200_S512x200_1_0_0_1_n_n.contr.Idx) : (dot_S512x360_S360x200_S512x200_1_0_0_1_n_n.lhsIdx i q 1).val = (q ⟨0, by decide⟩).val :=
  dot_S512x360_S360x200_S512x200_1_0_0_1_n_n.lhsIdx_val_of_single rfl i q
theorem mm360_r0 (i : S512x200.Idx) (q : dot_S512x360_S360x200_S512x200_1_0_0_1_n_n.contr.Idx) : (dot_S512x360_S360x200_S512x200_1_0_0_1_n_n.rhsIdx i q 0).val = (q ⟨0, by decide⟩).val :=
  dot_S512x360_S360x200_S512x200_1_0_0_1_n_n.rhsIdx_val_of_single rfl i q
theorem mm360_r1 (i : S512x200.Idx) (q : dot_S512x360_S360x200_S512x200_1_0_0_1_n_n.contr.Idx) : (dot_S512x360_S360x200_S512x200_1_0_0_1_n_n.rhsIdx i q 1).val = (i 1).val := by
  unfold DotDims.rhsIdx
  rw [dif_neg (show ¬(1 : Fin S360x200.rank) ∈ dot_S512x360_S360x200_S512x200_1_0_0_1_n_n.rhsBatch by decide), dif_pos (show (1 : Fin S360x200.rank) ∈ dot_S512x360_S360x200_S512x200_1_0_0_1_n_n.rhsNonContracting by decide)]
  rfl

/-- The rows-times-columns product with the dense map, entry `(r, q)`. -/
theorem mm360_apply {φ₁ φ₂ : FTy} (l : FVec Ideal S512x360 φ₁) (w : FVec Ideal S360x200 φ₂) (r : Fin 512) (q : Fin 200) :
    matmul dot_S512x360_S360x200_S512x200_1_0_0_1_n_n none l w (constant S512x200 .f32 0x00000000#32) (ix2 r q)
      = ∑ d : Fin 360, l (ix2 r d) * w (ix2 d q) := by
  simp only [matmul]
  rw [Ideal.matmul_constant_zero_apply, ← Equiv.sum_comp (contrEquiv1 dot_S512x360_S360x200_S512x200_1_0_0_1_n_n 360 rfl rfl).symm]
  refine Finset.sum_congr rfl fun k _ => ?_
  have hk := contrEquiv1_symm_val dot_S512x360_S360x200_S512x200_1_0_0_1_n_n 360 rfl rfl k
  have el : dot_S512x360_S360x200_S512x200_1_0_0_1_n_n.lhsIdx (ix2 r q) ((contrEquiv1 dot_S512x360_S360x200_S512x200_1_0_0_1_n_n 360 rfl rfl).symm k) = ix2 r k := funext fun a => Fin.ext (by
    match a with
    | ⟨0, _⟩ => exact mm360_l0 _ _
    | ⟨1, _⟩ => exact (mm360_l1 _ _).trans hk)
  have er : dot_S512x360_S360x200_S512x200_1_0_0_1_n_n.rhsIdx (ix2 r q) ((contrEquiv1 dot_S512x360_S360x200_S512x200_1_0_0_1_n_n 360 rfl rfl).symm k) = ix2 k q := funext fun a => Fin.ext (by
    match a with
    | ⟨0, _⟩ => exact (mm360_r0 _ _).trans hk
    | ⟨1, _⟩ => exact mm360_r1 _ _)
  rw [el, er]

/-! ### rows × dense map at width 200 -/

theorem mm200_l0 (i : S512x200.Idx) (q : dot_S512x200_S200x200_S512x200_1_0_0_1_n_n.contr.Idx) : (dot_S512x200_S200x200_S512x200_1_0_0_1_n_n.lhsIdx i q 0).val = (i 0).val := by
  unfold DotDims.lhsIdx
  rw [dif_neg (show ¬(0 : Fin S512x200.rank) ∈ dot_S512x200_S200x200_S512x200_1_0_0_1_n_n.lhsBatch by decide), dif_pos (show (0 : Fin S512x200.rank) ∈ dot_S512x200_S200x200_S512x200_1_0_0_1_n_n.lhsNonContracting by decide)]
  rfl
theorem mm200_l1 (i : S512x200.Idx) (q : dot_S512x200_S200x200_S512x200_1_0_0_1_n_n.contr.Idx) : (dot_S512x200_S200x200_S512x200_1_0_0_1_n_n.lhsIdx i q 1).val = (q ⟨0, by decide⟩).val :=
  dot_S512x200_S200x200_S512x200_1_0_0_1_n_n.lhsIdx_val_of_single rfl i q
theorem mm200_r0 (i : S512x200.Idx) (q : dot_S512x200_S200x200_S512x200_1_0_0_1_n_n.contr.Idx) : (dot_S512x200_S200x200_S512x200_1_0_0_1_n_n.rhsIdx i q 0).val = (q ⟨0, by decide⟩).val :=
  dot_S512x200_S200x200_S512x200_1_0_0_1_n_n.rhsIdx_val_of_single rfl i q
theorem mm200_r1 (i : S512x200.Idx) (q : dot_S512x200_S200x200_S512x200_1_0_0_1_n_n.contr.Idx) : (dot_S512x200_S200x200_S512x200_1_0_0_1_n_n.rhsIdx i q 1).val = (i 1).val := by
  unfold DotDims.rhsIdx
  rw [dif_neg (show ¬(1 : Fin S200x200.rank) ∈ dot_S512x200_S200x200_S512x200_1_0_0_1_n_n.rhsBatch by decide), dif_pos (show (1 : Fin S200x200.rank) ∈ dot_S512x200_S200x200_S512x200_1_0_0_1_n_n.rhsNonContracting by decide)]
  rfl

/-- The rows-times-columns product with the dense map, entry `(r, q)`. -/
theorem mm200_apply {φ₁ φ₂ : FTy} (l : FVec Ideal S512x200 φ₁) (w : FVec Ideal S200x200 φ₂) (r : Fin 512) (q : Fin 200) :
    matmul dot_S512x200_S200x200_S512x200_1_0_0_1_n_n none l w (constant S512x200 .f32 0x00000000#32) (ix2 r q)
      = ∑ d : Fin 200, l (ix2 r d) * w (ix2 d q) := by
  simp only [matmul]
  rw [Ideal.matmul_constant_zero_apply, ← Equiv.sum_comp (contrEquiv1 dot_S512x200_S200x200_S512x200_1_0_0_1_n_n 200 rfl rfl).symm]
  refine Finset.sum_congr rfl fun k _ => ?_
  have hk := contrEquiv1_symm_val dot_S512x200_S200x200_S512x200_1_0_0_1_n_n 200 rfl rfl k
  have el : dot_S512x200_S200x200_S512x200_1_0_0_1_n_n.lhsIdx (ix2 r q) ((contrEquiv1 dot_S512x200_S200x200_S512x200_1_0_0_1_n_n 200 rfl rfl).symm k) = ix2 r k := funext fun a => Fin.ext (by
    match a with
    | ⟨0, _⟩ => exact mm200_l0 _ _
    | ⟨1, _⟩ => exact (mm200_l1 _ _).trans hk)
  have er : dot_S512x200_S200x200_S512x200_1_0_0_1_n_n.rhsIdx (ix2 r q) ((contrEquiv1 dot_S512x200_S200x200_S512x200_1_0_0_1_n_n 200 rfl rfl).symm k) = ix2 k q := funext fun a => Fin.ext (by
    match a with
    | ⟨0, _⟩ => exact (mm200_r0 _ _).trans hk
    | ⟨1, _⟩ => exact mm200_r1 _ _)
  rw [el, er]

/-- A row's sum of the adjacency block. -/
theorem rowSum_apply (v0 : FVec Ideal S2x256x256 .f32) (b : Fin 2) (i : Fin 256) :
    multiReduction .add [2] S2x256 v0 0x00000000#32 reduces_S2x256x256_S2x256 (.inl rfl) rfl (ix2 b i)
      = ∑ j : Fin 256, v0 (ix3 b i j) := by
  refine (Ideal.multiReduction_add_single v0 0x00000000#32 reduces_S2x256x256_S2x256 (.inl rfl) rfl (ix2 b i)).trans ?_
  exact Finset.sum_congr rfl fun k _ => congrArg v0 (funext fun a => Fin.ext (by
    match a with | ⟨0, _⟩ => rfl | ⟨1, _⟩ => rfl | ⟨2, _⟩ => rfl))

/-- A column's sum of the adjacency block. -/
theorem colSum_apply (v0 : FVec Ideal S2x256x256 .f32) (b : Fin 2) (i : Fin 256) :
    multiReduction .add [1] S2x256 v0 0x00000000#32 reduces_S2x256x256_S2x256_2 (.inl rfl) rfl (ix2 b i)
      = ∑ j : Fin 256, v0 (ix3 b j i) := by
  refine (Ideal.multiReduction_add_single v0 0x00000000#32 reduces_S2x256x256_S2x256_2 (.inl rfl) rfl (ix2 b i)).trans ?_
  exact Finset.sum_congr rfl fun k _ => congrArg v0 (funext fun a => Fin.ext (by
    match a with | ⟨0, _⟩ => rfl | ⟨1, _⟩ => rfl | ⟨2, _⟩ => rfl))

end Cert.KernelIdeal.Blk

end
-- ==== Proof.GcnSpec.lean ====
/-
  The graph-convolution network both programs compute, stated entry by entry over the extended reals.

  For a batch of graphs (adjacency `A b i j`, node features `X b j d`) one layer is
    h[b,i,q] = max ( ( (∑ d, ((∑ j, A b i j · X b j d) + X b i d) · W q d) + 2 · bias q ) / (1 + ∑ j, A b i j) ) 0
  (aggregate over the neighbours, add the node's own features, apply the dense map `W`, add the bias twice,
  divide by the degree plus one, rectify); the network is two such layers, and a node is masked when its row sum
  plus its column sum of `A` is zero.  Everything is a function of the batch entry `b` alone, so a block of
  consecutive batch entries of the result is the network of that block of the inputs: the definitions take the
  number of batch entries as a parameter and the statement below is by unfolding.
-/
import Idealize.ShloMosaic.PureOps.Ideal
import Idealize.ShloMosaic.PureOps.Ideal.Laws

noncomputable section

namespace Cert.Gcn

open Idealize.ShloMosaic

/-- The f32 words of the network's constants, as the extended reals they denote. -/
def zeroW : EReal := Ideal.ofBits .f32 0x00000000#32
def oneW : EReal := Ideal.ofBits .f32 0x3F800000#32
def twoW : EReal := Ideal.ofBits .f32 0x40000000#32
def halfW : EReal := Ideal.ofBits .f32 0x3F000000#32

variable {nb L : ℕ}

/-- The sum of row `i` of graph `b`'s adjacency: the node's out-degree. -/
def rowSum (A : Fin nb → Fin L → Fin L → EReal) (b : Fin nb) (i : Fin L) : EReal := ∑ j, A b i j
/-- The sum of column `i`: the node's in-degree. -/
def colSum (A : Fin nb → Fin L → Fin L → EReal) (b : Fin nb) (i : Fin L) : EReal := ∑ j, A b j i
/-- The divisor of a layer: the out-degree plus one. -/
def denom (A : Fin nb → Fin L → Fin L → EReal) (b : Fin nb) (i : Fin L) : EReal := rowSum A b i + oneW

/-- Neighbour aggregation plus the node's own row: `(A·X + X)[b,i,d]`. -/
def agg {D : ℕ} (A : Fin nb → Fin L → Fin L → EReal) (X : Fin nb → Fin L → Fin D → EReal)
    (b : Fin nb) (i : Fin L) (d : Fin D) : EReal := (∑ j, A b i j * X b j d) + X b i d

/-- One layer, entry `(b, i, q)`. `W q d` is the dense map as the reference holds it (output feature first). -/
def layer {D Q : ℕ} (A : Fin nb → Fin L → Fin L → EReal) (X : Fin nb → Fin L → Fin D → EReal)
    (W : Fin Q → Fin D → EReal) (bias : Fin Q → EReal) (b : Fin nb) (i : Fin L) (q : Fin Q) : EReal :=
  max (Ideal.div ((∑ d, agg A X b i d * W q d) + twoW * bias q) (denom A b i)) zeroW

/-- The two-layer network. -/
def net {D Q : ℕ} (A : Fin nb → Fin L → Fin L → EReal) (X : Fin nb → Fin L → Fin D → EReal)
    (W0 : Fin Q → Fin D → EReal) (b0 : Fin Q → EReal) (W1 : Fin Q → Fin Q → EReal) (b1 : Fin Q → EReal) :
    Fin nb → Fin L → Fin Q → EReal :=
  layer A (layer A X W0 b0) W1 b1

/-- The degree total whose vanishing masks a node. -/
def degTotal (A : Fin nb → Fin L → Fin L → EReal) (b : Fin nb) (i : Fin L) : EReal := rowSum A b i + colSum A b i

/-- A block of batch entries of the network is the network of that block of the inputs (`f` picks the entries). -/
theorem net_block {D Q nb' : ℕ} (f : Fin nb' → Fin nb) (A : Fin nb → Fin L → Fin L → EReal)
    (X : Fin nb → Fin L → Fin D → EReal) (W0 : Fin Q → Fin D → EReal) (b0 : Fin Q → EReal)
    (W1 : Fin Q → Fin Q → EReal) (b1 : Fin Q → EReal) (b' : Fin nb') (i : Fin L) (q : Fin Q) :
    net (fun b => A (f b)) (fun b => X (f b)) W0 b0 W1 b1 b' i q = net A X W0 b0 W1 b1 (f b') i q := rfl

theorem degTotal_block {nb' : ℕ} (f : Fin nb' → Fin nb) (A : Fin nb → Fin L → Fin L → EReal) (b' : Fin nb') (i : Fin L) :
    degTotal (fun b => A (f b)) b' i = degTotal A (f b') i := rfl

end Cert.Gcn

end
-- ==== Proof.LibRelayout.lean ====
/-
  Re-layouts of an array read at an index given by its coordinates.

  A row-major reshape keeps the position of every entry in the flat order. So a reshape that MERGES leading axes
  ([a, b, c] to [a·b, c]) reads, at row `p·b + q`, the entry `(p, q, ·)`; one that SPLITS them back reads the same the other
  way; one that INSERTS a unit axis forgets the unit coordinate. A broadcast along an axis of extent one reads the one
  entry there is on that axis. Each statement below names both indices by coordinates, for any extents, so that a chain of
  such operations is walked by `rw`, outermost operation first.
-/
import Idealize.ShloMosaic.Lib.ValueIdx
import Idealize.ShloMosaic.Lib.ValueLayout
import Idealize.ShloMosaic.Lib.Pipeline.Value

namespace Cert.Relayout

open Idealize.ShloMosaic Idealize.ShloMosaic.ValueIdx

variable {α : Type}

/-! ## Merging and splitting leading axes -/

/-- `[a, b, c]` merged to `[M, c]`: row `p·b + q` is `(p, q, ·)`. -/
theorem merge_ab_apply {a b c M : ℕ} (x : (⟨3, ![a, b, c]⟩ : Shape).Idx → α) (h : (⟨3, ![a, b, c]⟩ : Shape).ShapeCasts ⟨2, ![M, c]⟩)
    (p : Fin a) (q : Fin b) (k : Fin c) (r : Fin M) (hr : r.val = p.val * b + q.val) :
    shapeCast ⟨2, ![M, c]⟩ x h (ix2 r k) = x (ix3 p q k) :=
  shapeCast_apply x h _ _ (by
    rw [Shape.rowMajor_val_three, Shape.rowMajor_val_two]
    show (p.val * b + q.val) * c + k.val = r.val * c + k.val
    rw [hr])

/-- `[M, c]` split to `[a, b, c]`: `(p, q, ·)` is row `p·b + q`. -/
theorem split_ab_apply {a b c M : ℕ} (x : (⟨2, ![M, c]⟩ : Shape).Idx → α) (h : (⟨2, ![M, c]⟩ : Shape).ShapeCasts ⟨3, ![a, b, c]⟩)
    (p : Fin a) (q : Fin b) (k : Fin c) (r : Fin M) (hr : r.val = p.val * b + q.val) :
    shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- `[a, b, c, d]` merged to `[M, d]`: row `(p·b + q)·c + s` is `(p, q, s, ·)`. -/
theorem merge_abc_apply {a b c d M : ℕ} (x : (⟨4, ![a, b, c, d]⟩ : Shape).Idx → α) (h : (⟨4, ![a, b, c, d]⟩ : Shape).ShapeCasts ⟨2, ![M, d]⟩)
    (p : Fin a) (q : Fin b) (s : Fin c) (k : Fin d) (r : Fin M) (hr : r.val = (p.val * b + q.val) * c + s.val) :
    shapeCast ⟨2, ![M, d]⟩ x h (ix2 r k) = x (ix4 p q s k) :=
  shapeCast_apply x h _ _ (by
    rw [Shape.rowMajor_val_four, Shape.rowMajor_val_two]
    show ((p.val * b + q.val) * c + s.val) * d + k.val = r.val * d + k.val
    rw [hr])

/-- `[M, d]` split to `[a, b, c, d]`: `(p, q, s, ·)` is row `(p·b + q)·c + s`. -/
theorem split_abc_apply {a b c d M : ℕ} (x : (⟨2, ![M, d]⟩ : Shape).Idx → α) (h : (⟨2, ![M, d]⟩ : Shape).ShapeCasts ⟨4, ![a, b, c, d]⟩)
    (p : Fin a) (q : Fin b) (s : Fin c) (k : Fin d) (r : Fin M) (hr : r.val = (p.val * b + q.val) * c + s.val) :
    shapeCast ⟨4, ![a, b, c, d]⟩ x h (ix4 p q s k) = x (ix2 r k) :=
  shapeCast_apply x h _ _ (by
    rw [Shape.rowMajor_val_four, Shape.rowMajor_val_two]
    show r.val * d + k.val = ((p.val * b + q.val) * c + s.val) * d + k.val
    rw [hr])

/-- `[a, b, c, d]` with its two leading axes merged, `[N, c, d]`: leading coordinate `p·b + q` is `(p, q, ·, ·)`. -/
theorem mergeLead_apply {a b c d N : ℕ} (x : (⟨4, ![a, b, c, d]⟩ : Shape).Idx → α) (h : (⟨4, ![a, b, c, d]⟩ : Shape).ShapeCasts ⟨3, ![N, c, d]⟩)
    (p : Fin a) (q : Fin b) (s : Fin c) (k : Fin d) (n : Fin N) (hn : n.val = p.val * b + q.val) :
    shapeCast ⟨3, ![N, c, d]⟩ x h (ix3 n s k) = x (ix4 p q s k) :=
  shapeCast_apply x h _ _ (by
    rw [Shape.rowMajor_val_four, Shape.rowMajor_val_three]
    show ((p.val * b + q.val) * c + s.val) * d + k.val = (n.val * c + s.val) * d + k.val
    rw [hn])

/-! ## A unit axis inserted in the middle -/

/-- `[a, b, c]` viewed `[a, 1, b, c]`. -/
theorem unitSecond_apply {a b c : ℕ} (x : (⟨3, ![a, b, c]⟩ : Shape).Idx → α) (h : (⟨3, ![a, b, c]⟩ : Shape).ShapeCasts ⟨4, ![a, 1, b, c]⟩)
    (p : Fin a) (u : Fin 1) (q : Fin b) (k : Fin c) :
    shapeCast ⟨4, ![a, 1, b, c]⟩ x h (ix4 p u q k) = x (ix3 p q k) :=
  shapeCast_apply x h _ _ (by
    have hu : u.val = 0 := by omega
    rw [Shape.rowMajor_val_four, Shape.rowMajor_val_three]
    show (p.val * b + q.val) * c + k.val = ((p.val * 1 + u.val) * b + q.val) * c + k.val
    rw [hu, Nat.mul_one, Nat.add_zero])

/-- `[a, b, c]` viewed `[a, b, 1, c]`. -/
theorem unitThird_apply {a b c : ℕ} (x : (⟨3, ![a, b, c]⟩ : Shape).Idx → α) (h : (⟨3, ![a, b, c]⟩ : Shape).ShapeCasts ⟨4, ![a, b, 1, c]⟩)
    (p : Fin a) (q : Fin b) (u : Fin 1) (k : Fin c) :
    shapeCast ⟨4, ![a, b, 1, c]⟩ x h (ix4 p q u k) = x (ix3 p q k) :=
  shapeCast_apply x h _ _ (by
    have hu : u.val = 0 := by omega
    rw [Shape.rowMajor_val_four, Shape.rowMajor_val_three]
    show (p.val * b + q.val) * c + k.val = ((p.val * b + q.val) * 1 + u.val) * c + k.val
    rw [hu, Nat.mul_one, Nat.add_zero])

/-- A row `[1, c]` viewed `[1, 1, 1, c]`. -/
theorem rowToUnits_apply {c : ℕ} (x : (⟨2, ![1, c]⟩ : Shape).Idx → α) (h : (⟨2, ![1, c]⟩ : Shape).ShapeCasts ⟨4, ![1, 1, 1, c]⟩)
    (u1 u2 u3 : Fin 1) (k : Fin c) :
    shapeCast ⟨4, ![1, 1, 1, c]⟩ x h (ix4 u1 u2 u3 k) = x (ix2 (0 : Fin 1) k) :=
  shapeCast_apply x h _ _ (by
    have h1 : u1.val = 0 := by omega
    have h2 : u2.val = 0 := by omega
    have h3 : u3.val = 0 := by omega
    rw [Shape.rowMajor_val_four, Shape.rowMajor_val_two]
    show 0 * c + k.val = ((u1.val * 1 + u2.val) * 1 + u3.val) * c + k.val
    rw [h1, h2, h3])

/-! ## Broadcasts along one axis of a rank-4 array -/

/-- `[a, 1, c, d]` broadcast to `[a, b, c, d]`. -/
theorem bcastSecond_apply {a b c d : ℕ} (x : (⟨4, ![a, 1, c, d]⟩ : Shape).Idx → α) (h : (⟨4, ![a, 1, c, d]⟩ : Shape).Broadcasts ⟨4, ![a, b, c, d]⟩)
    (p : Fin a) (q : Fin b) (s : Fin c) (k : Fin d) :
    broadcastTo ⟨4, ![a, b, c, d]⟩ x h (ix4 p q s k) = x (ix4 p (0 : Fin 1) s k) :=
  broadcastTo_apply x h _ _ fun ax => by
    match ax with
    | ⟨0, _⟩ => show p.val = if a = 1 then 0 else p.val; split <;> [(have := p.isLt; omega); rfl]
    | ⟨1, _⟩ => show (0 : ℕ) = if (1 : ℕ) = 1 then 0 else q.val; rw [if_pos rfl]
    | ⟨2, _⟩ => show s.val = if c = 1 then 0 else s.val; split <;> [(have := s.isLt; omega); rfl]
    | ⟨3, _⟩ => show k.val = if d = 1 then 0 else k.val; split <;> [(have := k.isLt; omega); rfl]

/-- `[a, b, 1, d]` broadcast to `[a, b, c, d]`. -/
theorem bcastThird_apply {a b c d : ℕ} (x : (⟨4, ![a, b, 1, d]⟩ : Shape).Idx → α) (h : (⟨4, ![a, b, 1, d]⟩ : Shape).Broadcasts ⟨4, ![a, b, c, d]⟩)
    (p : Fin a) (q : Fin b) (s : Fin c) (k : Fin d) :
    broadcastTo ⟨4, ![a, b, c, d]⟩ x h (ix4 p q s k) = x (ix4 p q (0 : Fin 1) k) :=
  broadcastTo_apply x h _ _ fun ax => by
    match ax with
    | ⟨0, _⟩ => show p.val = if a = 1 then 0 else p.val; split <;> [(have := p.isLt; omega); rfl]
    | ⟨1, _⟩ => show q.val = if b = 1 then 0 else q.val; split <;> [(have := q.isLt; omega); rfl]
    | ⟨2, _⟩ => show (0 : ℕ) = if (1 : ℕ) = 1 then 0 else s.val; rw [if_pos rfl]
    | ⟨3, _⟩ => show k.val = if d = 1 then 0 else k.val; split <;> [(have := k.isLt; omega); rfl]

/-- `[1, 1, 1, d]` broadcast to `[a, b, c, d]`: one row for every `(p, q, s)`. -/
theorem bcastRow_apply {a b c d : ℕ} (x : (⟨4, ![1, 1, 1, d]⟩ : Shape).Idx → α) (h : (⟨4, ![1, 1, 1, d]⟩ : Shape).Broadcasts ⟨4, ![a, b, c, d]⟩)
    (p : Fin a) (q : Fin b) (s : Fin c) (k : Fin d) :
    broadcastTo ⟨4, ![a, b, c, d]⟩ x h (ix4 p q s k) = x (ix4 (0 : Fin 1) (0 : Fin 1) (0 : Fin 1) k) :=
  broadcastTo_apply x h _ _ fun ax => by
    match ax with
    | ⟨0, _⟩ => show (0 : ℕ) = if (1 : ℕ) = 1 then 0 else p.val; rw [if_pos rfl]
    | ⟨1, _⟩ => show (0 : ℕ) = if (1 : ℕ) = 1 then 0 else q.val; rw [if_pos rfl]
    | ⟨2, _⟩ => show (0 : ℕ) = if (1 : ℕ) = 1 then 0 else s.val; rw [if_pos rfl]
    | ⟨3, _⟩ => show k.val = if d = 1 then 0 else k.val; split <;> [(have := k.isLt; omega); rfl]

end Cert.Relayout
-- ==== Proof.LibSumBlocks.lean ====
/-
  A sum over an index range made of consecutive blocks, and rank-3 re-layouts read at coordinates.

  In any commutative additive monoid (the extended reals included; nothing here needs finiteness) a sum over
  `n₁ + n₂ + n₃ + n₄` consecutive indices is the sum of the four blocks' sums: this is what splits a contraction over a
  concatenated feature axis into one contraction per concatenated piece. The second half reads, at an index given by
  its coordinates, the rank-3 broadcasts along one or two unit axes and the casts that insert those unit axes.
-/
import Mathlib.Algebra.BigOperators.Fin
import Idealize.ShloMosaic.Lib.ValueIdx
import Idealize.ShloMosaic.Lib.ValueLayout
import Idealize.ShloMosaic.Lib.Pipeline.Value

open scoped BigOperators

namespace Cert.SumBlocks

/-- A sum over `N = n₁ + n₂ + n₃ + n₄` indices, block by block: the first `n₁` indices, the next `n₂`, the next
    `n₃`, the last `n₄`. -/
theorem sum_four_blocks {M : Type*} [AddCommMonoid M] {n₁ n₂ n₃ n₄ N : ℕ} (hN : N = n₁ + n₂ + n₃ + n₄) (g : Fin N → M) :
    ∑ f, g f
      = ((∑ k : Fin n₁, g ⟨k.val, by have := k.isLt; omega⟩) + (∑ k : Fin n₂, g ⟨n₁ + k.val, by have := k.isLt; omega⟩))
        + ((∑ k : Fin n₃, g ⟨n₁ + n₂ + k.val, by have := k.isLt; omega⟩)
          + (∑ k : Fin n₄, g ⟨n₁ + n₂ + n₃ + k.val, by have := k.isLt; omega⟩)) := by
  subst hN
  rw [Fin.sum_univ_add, Fin.sum_univ_add, Fin.sum_univ_add, add_assoc]
  rfl

end Cert.SumBlocks

namespace Cert.RankThree

open Idealize.ShloMosaic Idealize.ShloMosaic.ValueIdx

variable {α : Type}

/-- `[a, 1, c]` broadcast to `[a, b, c]`: every position on the second axis reads the one there is. -/
theorem bcastMid_apply {a b c : ℕ} (x : (⟨3, ![a, 1, c]⟩ : Shape).Idx → α) (h : (⟨3, ![a, 1, c]⟩ : Shape).Broadcasts ⟨3, ![a, b, c]⟩)
    (p : Fin a) (q : Fin b) (k : Fin c) : broadcastTo ⟨3, ![a, b, c]⟩ x h (ix3 p q k) = x (ix3 p (0 : Fin 1) k) :=
  broadcastTo_apply x h _ _ fun ax => by
    match ax with
    | ⟨0, _⟩ => show p.val = if a = 1 then 0 else p.val; split <;> [(have := p.isLt; omega); rfl]
    | ⟨1, _⟩ => show (0 : ℕ) = if (1 : ℕ) = 1 then 0 else q.val; rw [if_pos rfl]
    | ⟨2, _⟩ => show k.val = if c = 1 then 0 else k.val; split <;> [(have := k.isLt; omega); rfl]

/-- `[1, b, c]` broadcast to `[a, b, c]`: every position on the first axis reads the one there is. -/
theorem bcastLead_apply {a b c : ℕ} (x : (⟨3, ![1, b, c]⟩ : Shape).Idx → α) (h : (⟨3, ![1, b, c]⟩ : Shape).Broadcasts ⟨3, ![a, b, c]⟩)
    (p : Fin a) (q : Fin b) (k : Fin c) : broadcastTo ⟨3, ![a, b, c]⟩ x h (ix3 p q k) = x (ix3 (0 : Fin 1) q k) :=
  broadcastTo_apply x h _ _ fun ax => by
    match ax with
    | ⟨0, _⟩ => show (0 : ℕ) = if (1 : ℕ) = 1 then 0 else p.val; rw [if_pos rfl]
    | ⟨1, _⟩ => show q.val = if b = 1 then 0 else q.val; split <;> [(have := q.isLt; omega); rfl]
    | ⟨2, _⟩ => show k.val = if c = 1 then 0 else k.val; split <;> [(have := k.isLt; omega); rfl]

/-- `[1, 1, c]` broadcast to `[a, b, c]`: one row for every `(p, q)`. -/
theorem bcastRow_apply {a b c : ℕ} (x : (⟨3, ![1, 1, c]⟩ : Shape).Idx → α) (h : (⟨3, ![1, 1, c]⟩ : Shape).Broadcasts ⟨3, ![a, b, c]⟩)
    (p : Fin a) (q : Fin b) (k : Fin c) : broadcastTo ⟨3, ![a, b, c]⟩ x h (ix3 p q k) = x (ix3 (0 : Fin 1) (0 : Fin 1) k) :=
  broadcastTo_apply x h _ _ fun ax => by
    match ax with
    | ⟨0, _⟩ => show (0 : ℕ) = if (1 : ℕ) = 1 then 0 else p.val; rw [if_pos rfl]
    | ⟨1, _⟩ => show (0 : ℕ) = if (1 : ℕ) = 1 then 0 else q.val; rw [if_pos rfl]
    | ⟨2, _⟩ => show k.val = if c = 1 then 0 else k.val; split <;> [(have := k.isLt; omega); rfl]

/-- `[a, c]` viewed `[a, 1, c]`. -/
theorem unitMid_apply {a c : ℕ} (x : (⟨2, ![a, c]⟩ : Shape).Idx → α) (h : (⟨2, ![a, c]⟩ : Shape).ShapeCasts ⟨3, ![a, 1, c]⟩)
    (p : Fin a) (u : Fin 1) (k : Fin c) : shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- `[c]` viewed `[1, 1, c]`. -/
theorem vecToUnits_apply {c : ℕ} (x : (⟨1, ![c]⟩ : Shape).Idx → α) (h : (⟨1, ![c]⟩ : Shape).ShapeCasts ⟨3, ![1, 1, c]⟩)
    (u₁ u₂ : Fin 1) (k : Fin c) : shapeCast ⟨3, ![1, 1, c]⟩ x h (ix3 u₁ u₂ k) = x (ix1 k) :=
  shapeCast_apply x h _ _ (by
    have h1 : u₁.val = 0 := by omega
    have h2 : u₂.val = 0 := by omega
    rw [Shape.rowMajor_val_three, Shape.rowMajor_val_one]
    show k.val = (u₁.val * 1 + u₂.val) * c + k.val
    rw [h1, h2]; simp)

/-- The transpose that swaps the two leading axes of an `[a, b, c]` array. -/
theorem swapLead_apply {a b c : ℕ} (x : (⟨3, ![a, b, c]⟩ : Shape).Idx → α)
    (h : (⟨3, ![a, b, c]⟩ : Shape).Transposes [1, 0, 2] ⟨3, ![b, a, c]⟩) (q : Fin b) (p : Fin a) (k : Fin c) :
    transpose ⟨3, ![b, a, c]⟩ [1, 0, 2] x h (ix3 q p k) = x (ix3 p q k) :=
  transpose_apply _ x h _ _ fun ax => match ax with | ⟨0, _⟩ => rfl | ⟨1, _⟩ => rfl | ⟨2, _⟩ => rfl

end Cert.RankThree
-- ==== Proof.LibTrailingUnit.lean ====
/-
  A trailing axis of extent one, read at coordinates.

  An `[a, b]` array viewed `[a, b, 1]` has the same entries in the same row-major order, so entry `(p, q, 0)` is entry
  `(p, q)`.  An `[a, b, 1]` array broadcast to `[a, b, c]` repeats its one column: entry `(p, q, k)` is entry `(p, q, 0)`.
  Both for any extents and any element type.
-/
import Idealize.ShloMosaic.Lib.ValueIdx
import Idealize.ShloMosaic.Lib.ValueLayout
import Idealize.ShloMosaic.Lib.Pipeline.Value

namespace Cert.TrailingUnit

open Idealize.ShloMosaic Idealize.ShloMosaic.ValueIdx

variable {α : Type}

/-- `[a, b]` viewed `[a, b, 1]`: the unit coordinate is forgotten. -/
theorem unitLast_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, b, 1]` broadcast to `[a, b, c]`: every position on the last axis reads the one there is. -/
theorem bcastLast_apply {a b c : ℕ} (x : (⟨3, ![a, b, 1]⟩ : Shape).Idx → α) (h : (⟨3, ![a, b, 1]⟩ : Shape).Broadcasts ⟨3, ![a, b, c]⟩)
    (p : Fin a) (q : Fin b) (k : Fin c) : broadcastTo ⟨3, ![a, b, c]⟩ x h (ix3 p q k) = x (ix3 p q (0 : Fin 1)) :=
  broadcastTo_apply x h _ _ fun ax => by
    match ax with
    | ⟨0, _⟩ => show p.val = if a = 1 then 0 else p.val; split <;> [(have := p.isLt; omega); rfl]
    | ⟨1, _⟩ => show q.val = if b = 1 then 0 else q.val; split <;> [(have := q.isLt; omega); rfl]
    | ⟨2, _⟩ => show (0 : ℕ) = if (1 : ℕ) = 1 then 0 else k.val; rw [if_pos rfl]

end Cert.TrailingUnit
-- ==== Proof.KernelBlock.lean ====
/-
  What the body computes on one block of two graphs, entry by entry.

  The body's arithmetic is two layers, each an aggregation step and a dense step, written here once per input width
  (360 for the embedded features, 200 for the hidden layer) in the body's own spelling and read at coordinates: the
  aggregation lays the 2 × 256 node rows one under the other (row `256·b + i` is node `i` of graph `b`), the dense step
  splits them back.  The dense maps arrive transposed (input feature first) and the biases as `[1, 1, 200]` rows.  With
  that, the feature output of the block is the two-layer network `Cert.Gcn.net` of the block's inputs.
-/
import proofs.«139517_j65077344469279_1_alg».proof.Proof.Gen.KernelIdeal.Skeleton
import proofs.«139517_j65077344469279_1_alg».proof.Proof.BlockProducts
import proofs.«139517_j65077344469279_1_alg».proof.Proof.GcnSpec
import proofs.«139517_j65077344469279_1_alg».proof.Proof.LibRelayout
import proofs.«139517_j65077344469279_1_alg».proof.Proof.LibSumBlocks
import proofs.«139517_j65077344469279_1_alg».proof.Proof.LibTrailingUnit

noncomputable section

namespace Cert.KernelIdeal.Blk

open Cert.KernelIdeal Cert.KernelIdeal.Gen Idealize.ShloMosaic Idealize.ShloMosaic.ValueIdx

/-- Node `i` of graph `b` among the 512 rows of a block. -/
def row (b : Fin 2) (i : Fin 256) : Fin 512 := ⟨b.val * 256 + i.val, by have := b.isLt; have := i.isLt; omega⟩

/-! ## A layer at input width 360 -/

/-- Aggregate over the neighbours, add the node's own features, and lay the two graphs' rows one under the other. -/
def aggV360 (a : FVec Ideal S2x256x256 .f32) (x : FVec Ideal S2x256x360 .f32) : FVec Ideal S512x360 .f32 :=
  shapeCast S512x360 (addf (matmul dot_S2x256x256_S2x256x360_S2x256x360_2_1_1_2_0_0 none (truncf .bf16 a bitsLt_bf16_f32) (truncf .bf16 x bitsLt_bf16_f32)
    (constant S2x256x360 .f32 0x00000000#32)) x) shapeCasts_S2x256x360_S512x360

/-- Apply the dense map to the rows, split them back into the two graphs, add the bias twice, divide by the degree plus
    one, rectify. -/
def denseV360 (s : FVec Ideal S512x360 .f32) (w : FVec Ideal S360x200 .f32) (bias : FVec Ideal S1x1x200 .f32)
    (den : FVec Ideal S2x256x1 .f32) : FVec Ideal S2x256x200 .f32 :=
  maximumf (divf (addf
      (shapeCast S2x256x200 (matmul dot_S512x360_S360x200_S512x200_1_0_0_1_n_n none (truncf .bf16 s bitsLt_bf16_f32)
        (truncf .bf16 (shapeCast S360x200 w shapeCasts_S360x200_S360x200) bitsLt_bf16_f32) (constant S512x200 .f32 0x00000000#32))
        shapeCasts_S512x200_S2x256x200)
      (broadcastTo S2x256x200 (mulf (broadcast S1x1x200 (Scalar.ofBits .f32 0x40000000#32))
        (shapeCast S1x1x200 bias shapeCasts_S1x1x200_S1x1x200)) broadcasts_S1x1x200_S2x256x200))
    (broadcastTo S2x256x200 den broadcasts_S2x256x1_S2x256x200))
    (broadcast S2x256x200 (Scalar.ofBits .f32 0x00000000#32))

theorem aggV360_apply (a : FVec Ideal S2x256x256 .f32) (x : FVec Ideal S2x256x360 .f32) (b : Fin 2) (i : Fin 256) (d : Fin 360) :
    aggV360 a x (ix2 (row b i) d) = (∑ j : Fin 256, a (ix3 b i j) * x (ix3 b j d)) + x (ix3 b i d) := by
  unfold aggV360
  refine (Cert.Relayout.merge_ab_apply _ shapeCasts_S2x256x360_S512x360 b i d (row b i) rfl).trans ?_
  rw [addf_apply, bmm360_apply]
  rfl

theorem denseV360_apply (s : FVec Ideal S512x360 .f32) (w : FVec Ideal S360x200 .f32) (bias : FVec Ideal S1x1x200 .f32)
    (den : FVec Ideal S2x256x1 .f32) (b : Fin 2) (i : Fin 256) (q : Fin 200) :
    denseV360 s w bias den (ix3 b i q)
      = max (Ideal.div ((∑ d : Fin 360, s (ix2 (row b i) d) * w (ix2 d q)) + Cert.Gcn.twoW * bias (ix3 (0 : Fin 1) (0 : Fin 1) q))
          (den (ix3 b i (0 : Fin 1)))) Cert.Gcn.zeroW := by
  unfold denseV360
  rw [maximumf_apply, divf_apply, addf_apply, broadcast_apply,
    Cert.Relayout.split_ab_apply _ shapeCasts_S512x200_S2x256x200 b i q (row b i) rfl, mm360_apply,
    Cert.RankThree.bcastRow_apply _ broadcasts_S1x1x200_S2x256x200 b i q, mulf_apply, broadcast_apply,
    shapeCast_self, shapeCast_self, Cert.TrailingUnit.bcastLast_apply _ broadcasts_S2x256x1_S2x256x200 b i q]
  rfl

/-! ## A layer at input width 200 -/

/-- Aggregate over the neighbours, add the node's own features, and lay the two graphs' rows one under the other. -/
def aggV200 (a : FVec Ideal S2x256x256 .f32) (x : FVec Ideal S2x256x200 .f32) : FVec Ideal S512x200 .f32 :=
  shapeCast S512x200 (addf (matmul dot_S2x256x256_S2x256x200_S2x256x200_2_1_1_2_0_0 none (truncf .bf16 a bitsLt_bf16_f32) (truncf .bf16 x bitsLt_bf16_f32)
    (constant S2x256x200 .f32 0x00000000#32)) x) shapeCasts_S2x256x200_S512x200

/-- Apply the dense map to the rows, split them back into the two graphs, add the bias twice, divide by the degree plus
    one, rectify. -/
def denseV200 (s : FVec Ideal S512x200 .f32) (w : FVec Ideal S200x200 .f32) (bias : FVec Ideal S1x1x200 .f32)
    (den : FVec Ideal S2x256x1 .f32) : FVec Ideal S2x256x200 .f32 :=
  maximumf (divf (addf
      (shapeCast S2x256x200 (matmul dot_S512x200_S200x200_S512x200_1_0_0_1_n_n none (truncf .bf16 s bitsLt_bf16_f32)
        (truncf .bf16 (shapeCast S200x200 w shapeCasts_S200x200_S200x200) bitsLt_bf16_f32) (constant S512x200 .f32 0x00000000#32))
        shapeCasts_S512x200_S2x256x200)
      (broadcastTo S2x256x200 (mulf (broadcast S1x1x200 (Scalar.ofBits .f32 0x40000000#32))
        (shapeCast S1x1x200 bias shapeCasts_S1x1x200_S1x1x200)) broadcasts_S1x1x200_S2x256x200))
    (broadcastTo S2x256x200 den broadcasts_S2x256x1_S2x256x200))
    (broadcast S2x256x200 (Scalar.ofBits .f32 0x00000000#32))

theorem aggV200_apply (a : FVec Ideal S2x256x256 .f32) (x : FVec Ideal S2x256x200 .f32) (b : Fin 2) (i : Fin 256) (d : Fin 200) :
    aggV200 a x (ix2 (row b i) d) = (∑ j : Fin 256, a (ix3 b i j) * x (ix3 b j d)) + x (ix3 b i d) := by
  unfold aggV200
  refine (Cert.Relayout.merge_ab_apply _ shapeCasts_S2x256x200_S512x200 b i d (row b i) rfl).trans ?_
  rw [addf_apply, bmm200_apply]
  rfl

theorem denseV200_apply (s : FVec Ideal S512x200 .f32) (w : FVec Ideal S200x200 .f32) (bias : FVec Ideal S1x1x200 .f32)
    (den : FVec Ideal S2x256x1 .f32) (b : Fin 2) (i : Fin 256) (q : Fin 200) :
    denseV200 s w bias den (ix3 b i q)
      = max (Ideal.div ((∑ d : Fin 200, s (ix2 (row b i) d) * w (ix2 d q)) + Cert.Gcn.twoW * bias (ix3 (0 : Fin 1) (0 : Fin 1) q))
          (den (ix3 b i (0 : Fin 1)))) Cert.Gcn.zeroW := by
  unfold denseV200
  rw [maximumf_apply, divf_apply, addf_apply, broadcast_apply,
    Cert.Relayout.split_ab_apply _ shapeCasts_S512x200_S2x256x200 b i q (row b i) rfl, mm200_apply,
    Cert.RankThree.bcastRow_apply _ broadcasts_S1x1x200_S2x256x200 b i q, mulf_apply, broadcast_apply,
    shapeCast_self, shapeCast_self, Cert.TrailingUnit.bcastLast_apply _ broadcasts_S2x256x1_S2x256x200 b i q]
  rfl

/-! ## The payloads -/

/-- The degree plus one, as a `[2, 256, 1]` column. -/
theorem pay3_apply (v0 : FVec Ideal S2x256x256 .f32) (b : Fin 2) (i : Fin 256) (u : Fin 1) :
    k0_pay3 (F := Ideal) v0 (ix3 b i u) = (∑ j : Fin 256, v0 (ix3 b i j)) + Cert.Gcn.oneW := by
  unfold k0_pay3 k0_pay2
  refine (Cert.TrailingUnit.unitLast_apply _ shapeCasts_S2x256_S2x256x1 b i u).trans ?_
  rw [addf_apply, rowSum_apply]
  rfl

/-- The mask column: the bit "row sum plus column sum is zero", widened to a word and converted to a float. -/
theorem pay4_apply (v0 : FVec Ideal S2x256x256 .f32) (b : Fin 2) (i : Fin 256) (u : Fin 1) :
    k0_pay4 (F := Ideal) v0 (ix3 b i u)
      = FloatOps.sitofp (F := Ideal) .f32 ((FloatOps.cmpf (F := Ideal) (φ := .f32) .oeq
          ((∑ j : Fin 256, v0 (ix3 b i j)) + ∑ j : Fin 256, v0 (ix3 b j i)) Cert.Gcn.zeroW).setWidth 32) := by
  unfold k0_pay4 k0_pay2
  refine (Cert.TrailingUnit.unitLast_apply _ shapeCasts_S2x256_S2x256x1 b i u).trans ?_
  rw [sitofp_apply, extui_apply, cmpf_apply, addf_apply, rowSum_apply, colSum_apply]
  rfl

/-- The second layer's aggregated rows are the aggregation of the first layer's output. -/
theorem pay5_eq (v0 : FVec Ideal S2x256x256 .f32) (v1 : FVec Ideal S2x256x360 .f32) (v20 : FVec Ideal S360x200 .f32) (v25 : FVec Ideal S1x1x200 .f32) :
    k0_pay5 (F := Ideal) v0 v1 v20 v25
      = aggV200 v0 (denseV360 (aggV360 v0 (shapeCast S2x256x360 v1 shapeCasts_S2x256x360_S2x256x360)) v20 v25 (k0_pay3 v0)) := rfl

/-- The stored features are the second layer's dense step. -/
theorem pay1_eq (v7 : FVec Ideal S2x256x1 .f32) (v38 : FVec Ideal S512x200 .f32) (v40 : FVec Ideal S200x200 .f32) (v45 : FVec Ideal S1x1x200 .f32) :
    k0_pay1 (F := Ideal) v7 v38 v40 v45 = denseV200 v38 v40 v45 v7 := rfl

/-- The block's feature output is the two-layer network of the block's inputs. -/
theorem feat_apply (x0 : FVec Ideal S2x256x256 .f32) (x1 : FVec Ideal S2x256x360 .f32) (x2 : FVec Ideal S360x200 .f32)
    (x3 : FVec Ideal S1x1x200 .f32) (x4 : FVec Ideal S200x200 .f32) (x5 : FVec Ideal S1x1x200 .f32) (b : Fin 2) (i : Fin 256) (q : Fin 200) :
    k0_pay1 (F := Ideal) (k0_pay3 x0) (k0_pay5 x0 x1 x2 x3) x4 x5 (ix3 b i q)
      = Cert.Gcn.net (fun b i j => x0 (ix3 b i j)) (fun b j d => x1 (ix3 b j d)) (fun q d => x2 (ix2 d q))
          (fun q => x3 (ix3 (0 : Fin 1) (0 : Fin 1) q)) (fun q d => x4 (ix2 d q)) (fun q => x5 (ix3 (0 : Fin 1) (0 : Fin 1) q)) b i q := by
  rw [pay1_eq, pay5_eq]
  unfold Cert.Gcn.net Cert.Gcn.layer Cert.Gcn.agg Cert.Gcn.denom Cert.Gcn.rowSum
  simp only [denseV200_apply, aggV200_apply, denseV360_apply, aggV360_apply, pay3_apply, shapeCast_self]

end Cert.KernelIdeal.Blk

end
-- ==== Proof.LibNaryThree.lean ====
/-
  The result of a host operation with a LITERAL family of three operand buffers.

  The library states the result of an `nary` operation over any family `xs : Fin n → Ref` as the operation's function
  applied to `fun k => F ↑(xs k)`: under that binder the reference `xs k` is no literal buffer, so a pass that rewrites
  each buffer's contents by the operation that wrote it stops there. For a family written out as `![x, a, b]` the same
  result is stated here with each operand's contents at its own reference:

  * `nary3_result`, `nary3_result'`: the function applied to `Fin.cons (F ↑x) (Fin.cons (F ↑a) (Fin.cons (F ↑b) …))`, in
    the two forms the library gives for four operands (the plain one, and the one with the result reference un-indexed
    for `simp`);
  * `nary3_result_of`: for a function that reads its family only at the three positions, `f u = g (u 0) (u 1) (u 2)`,
    the result is `g` of any three values the operands' contents are proved equal to. The type of `u k` is the contents
    type of `![x, a, b] k`, which is that of the `k`-th buffer only after the literal family is evaluated; in this form
    each operand's contents is the left side of an equation of its own, at its own buffer's type, so that it can be
    rewritten as any other buffer's.

  Nothing here depends on a particular program.
-/
import Idealize.ShloMosaic.Lib.StableHlo.Run

namespace Idealize.ShloMosaic.StableHlo

open Idealize.SL.Sem

variable {τ : Topo} {sig : RefSig} {Val : EltTy → Type}

section NaryThree

variable {x a b y : Ref sig .tc}

/-- `nary` over a literal family of three references: the result with each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a `simp` pass over the operations' results uses. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- `nary` over a literal family of three references whose function reads the family at its three positions only:
    the result is that function of any three values the operands' contents equal. -/
theorem nary3_result_of
    (g : x.ty.Contents Val → a.ty.Contents Val → b.ty.Contents Val → y.ty.Contents Val)
    {f : ((k : Fin 3) → ((![x, a, b] : Fin 3 → Ref sig .tc) k).ty.Contents Val) → y.ty.Contents Val}
    (hf : ∀ u, f u = g (u 0) (u 1) (u 2)) (hxs hy) (F : Valuation τ sig Val)
    {vx : x.ty.Contents Val} {va : a.ty.Contents Val} {vb : b.ty.Contents Val}
    (hx : F (Proc.devRef .tc x) = vx) (ha : F (Proc.devRef .tc a) = va) (hb : F (Proc.devRef .tc b) = vb) :
    (nary (τ := τ) ![x, a, b] y f hxs hy).result F (Proc.devRef .tc y) = g vx va vb := by
  subst hx ha hb
  rw [nary3_result f hxs hy F, hf]
  rfl

end NaryThree

end Idealize.ShloMosaic.StableHlo
-- ==== Proof.KernelValue.lean ====
/-
  The value of the idealized kernel: after the run, the feature result is the two-layer network of the argument arrays
  and the mask result the bit "out-degree plus in-degree is zero", at every index.

  The region finds its six input arrays at: the adjacency as launched; the embedded features `XK` (three table look-ups
  joined along the feature axis — kept as one term, never read at an index); the two dense maps transposed; the two
  biases viewed as `[1, 1, 200]` rows.  Grid point `t` handles graphs `2t` and `2t + 1`: its adjacency, feature and
  output blocks are those two graphs' slabs, the maps and biases are whole.  The network treats every graph by itself,
  so what point `t` writes back is the slab `2t, 2t + 1` of ONE whole-array function, and the 64 slabs cover the array.
  The mask leaves the region as a float 0 or 1; the host line after the region compares it with one half.
-/
import proofs.«139517_j65077344469279_1_alg».proof.Proof.KernelIdealFrame
import proofs.«139517_j65077344469279_1_alg».proof.Proof.KernelBlock
import proofs.«139517_j65077344469279_1_alg».proof.Proof.LibNaryThree
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.StableHlo
open Idealize.SL Idealize.SL.Sem
open Idealize.ShloMosaic.Pipeline (Dat)

variable (m : (ℓ : Loc nD τ sig) → Buf (Elt Ideal) ℓ) (ρ : Dev nD → PrngReg)

/-! ## What the region finds in its input arrays -/

/-- The embedded features `[128, 256, 360]`: the host lines that build them, composed. -/
def XK (a0 a1 a2 : (⟨S128x256, .i32⟩ : BufTy).Contents (Elt Ideal)) (a4 : (⟨S50000x300, .f32⟩ : BufTy).Contents (Elt Ideal)) (a5 : (⟨S52x30, .f32⟩ : BufTy).Contents (Elt Ideal)) (a6 : (⟨S20x30, .f32⟩ : BufTy).Contents (Elt Ideal)) : (⟨S128x256x360, .f32⟩ : BufTy).Contents (Elt Ideal) :=
  concatenate S128x256x360 2 [⟨S128x256x300, (Host.gather gather_S50000x300_S128x256x1_S128x256x300_2_0_n_n_0_2_1300 a4 (broadcastInDim S128x256x1 ![0, 1] bcast_S128x256_S128x256x1_0_1 (select (cmpi .slt a0 (broadcastInDim S128x256 ![] bcast_S_S128x256 (constantI S_ 32 0#32))) (addi a0 (broadcastInDim S128x256 ![] bcast_S_S128x256 (constantI S_ 32 50000#32))) a0)))⟩, ⟨S128x256x30, (Host.gather gather_S52x30_S128x256x1_S128x256x30_2_0_n_n_0_2_130 a5 (broadcastInDim S128x256x1 ![0, 1] bcast_S128x256_S128x256x1_0_1 (select (cmpi .slt a1 (broadcastInDim S128x256 ![] bcast_S_S128x256 (constantI S_ 32 0#32))) (addi a1 (broadcastInDim S128x256 ![] bcast_S_S128x256 (constantI S_ 32 52#32))) a1)))⟩, ⟨S128x256x30, (Host.gather gather_S20x30_S128x256x1_S128x256x30_2_0_n_n_0_2_130 a6 (broadcastInDim S128x256x1 ![0, 1] bcast_S128x256_S128x256x1_0_1 (select (cmpi .slt a2 (broadcastInDim S128x256 ![] bcast_S_S128x256 (constantI S_ 32 0#32))) (addi a2 (broadcastInDim S128x256 ![] bcast_S_S128x256 (constantI S_ 32 20#32))) a2)))⟩] concatenates_S128x256x300_S128x256x30_S128x256x30_S128x256x360_d2

/-- Each host line's result at its own buffer, every other buffer as it was: one pass over the lines. -/
macro "host_results" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

theorem V_feat (c : Dev nD) :
    V m c main_v21 = XK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  show StableHlo.after hostOps0 (fun b => m (c, b)) (Proc.devRef .tc main_v21) = _
  host_results
  rfl

theorem V_map0 (c : Dev nD) :
    V m c main_v22 = transpose S360x200 [1, 0] (m ((c.tc : Thread nD τ).loc main_arg7)) transposes_S200x360_S360x200_1_0 := by
  show StableHlo.after hostOps0 (fun b => m (c, b)) (Proc.devRef .tc main_v22) = _
  host_results

theorem V_map1 (c : Dev nD) :
    V m c main_v23 = transpose S200x200 [1, 0] (m ((c.tc : Thread nD τ).loc main_arg9)) transposes_S200x200_S200x200_1_0 := by
  show StableHlo.after hostOps0 (fun b => m (c, b)) (Proc.devRef .tc main_v23) = _
  host_results

theorem V_bias0 (c : Dev nD) :
    V m c main_v24 = shapeCast S1x1x200 (m ((c.tc : Thread nD τ).loc main_arg8)) shapeCasts_S200_S1x1x200 := by
  show StableHlo.after hostOps0 (fun b => m (c, b)) (Proc.devRef .tc main_v24) = _
  host_results
  rfl

theorem V_bias1 (c : Dev nD) :
    V m c main_v25 = shapeCast S1x1x200 (m ((c.tc : Thread nD τ).loc main_arg10)) shapeCasts_S200_S1x1x200 := by
  show StableHlo.after hostOps0 (fun b => m (c, b)) (Proc.devRef .tc main_v25) = _
  host_results
  rfl

/-! ## The index maps over the grid -/

/-- At point `t` the adjacency, feature and output windows are at slab `t` of the batch axis; the maps and biases are
    whole at every point. -/
theorem idx_facts : ∀ t : Fin cfg0.N,
    (win0_0.index t (0 : Fin 3) = t.val ∧ win0_0.index t (1 : Fin 3) = 0 ∧ win0_0.index t (2 : Fin 3) = 0) ∧ (win0_1.index t (0 : Fin 3) = t.val ∧ win0_1.index t (1 : Fin 3) = 0 ∧ win0_1.index t (2 : Fin 3) = 0) ∧ (win0_2.index t (0 : Fin 2) = 0 ∧ win0_2.index t (1 : Fin 2) = 0) ∧ (win0_3.index t (0 : Fin 3) = 0 ∧ win0_3.index t (1 : Fin 3) = 0 ∧ win0_3.index t (2 : Fin 3) = 0) ∧ (win0_4.index t (0 : Fin 2) = 0 ∧ win0_4.index t (1 : Fin 2) = 0) ∧ (win0_5.index t (0 : Fin 3) = 0 ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) ∧ (win0_7.index t (0 : Fin 3) = t.val ∧ win0_7.index t (1 : Fin 3) = 0 ∧ win0_7.index t (2 : Fin 3) = 0) :=
  (by decide +kernel : ∀ t : Fin grid0.N, _)

theorem t_lt (t : Fin cfg0.N) : t.val < 64 := lt_of_lt_of_eq t.isLt N_0

/-- Graph `b` of point `t`'s slab among the 128 graphs. -/
def bat (t : Fin cfg0.N) (b : Fin 2) : Fin 128 := ⟨2 * t.val + b.val, by have := t_lt t; have := b.isLt; omega⟩

theorem hz3 : (![0, 0, 0] : Fin 3 → Nat) = fun _ => 0 := funext fun a => by fin_cases a <;> rfl
theorem hz2 : (![0, 0] : Fin 2 → Nat) = fun _ => 0 := funext fun a => by fin_cases a <;> rfl

/-! ## The blocks the body reads, entry by entry -/

theorem read_adj (c : Dev nD) (t : Fin cfg0.N) (b : Fin 2) (i j : Fin 256) :
    iblk m c 0 t (ix3 b i j) = (m ((c.tc : Thread nD τ).loc main_arg3)) (ix3 (bat t b) i j) := by
  show V m c main_arg3 (((cfg0.win 0).blk t).view.emb (ix3 b i j)) = _
  rw [V_main_arg3]
  obtain ⟨⟨e0, e1, e2⟩, -⟩ := idx_facts t
  refine congrArg _ (funext fun a => Fin.ext ?_)
  match a with
  | ⟨0, _⟩ => show win0_0.index t (0 : Fin 3) * 2 + 1 * b.val = 2 * t.val + b.val; omega
  | ⟨1, _⟩ => show win0_0.index t (1 : Fin 3) * 256 + 1 * i.val = i.val; omega
  | ⟨2, _⟩ => show win0_0.index t (2 : Fin 3) * 256 + 1 * j.val = j.val; omega

theorem read_feat (c : Dev nD) (t : Fin cfg0.N) (b : Fin 2) (j : Fin 256) (d : Fin 360) :
    iblk m c 1 t (ix3 b j d) = XK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (ix3 (bat t b) j d) := by
  show V m c main_v21 (((cfg0.win 1).blk t).view.emb (ix3 b j d)) = _
  rw [V_feat]
  obtain ⟨-, ⟨e0, e1, e2⟩, -⟩ := idx_facts t
  refine congrArg _ (funext fun a => Fin.ext ?_)
  match a with
  | ⟨0, _⟩ => show win0_1.index t (0 : Fin 3) * 2 + 1 * b.val = 2 * t.val + b.val; omega
  | ⟨1, _⟩ => show win0_1.index t (1 : Fin 3) * 256 + 1 * j.val = j.val; omega
  | ⟨2, _⟩ => show win0_1.index t (2 : Fin 3) * 360 + 1 * d.val = d.val; omega

theorem read_map0 (c : Dev nD) (t : Fin cfg0.N) (d : Fin 360) (q : Fin 200) :
    iblk m c 2 t (ix2 d q) = (m ((c.tc : Thread nD τ).loc main_arg7)) (ix2 q d) := by
  show V m c main_v22 (((cfg0.win 2).blk t).view.emb (ix2 d q)) = _
  rw [V_map0]
  obtain ⟨-, -, ⟨e0, e1⟩, -⟩ := idx_facts t
  refine transpose_apply _ _ _ _ _ fun a => ?_
  match a with
  | ⟨0, _⟩ => show d.val = win0_2.index t (0 : Fin 2) * 360 + 1 * d.val; omega
  | ⟨1, _⟩ => show q.val = win0_2.index t (1 : Fin 2) * 200 + 1 * q.val; omega

theorem read_map1 (c : Dev nD) (t : Fin cfg0.N) (d : Fin 200) (q : Fin 200) :
    iblk m c 4 t (ix2 d q) = (m ((c.tc : Thread nD τ).loc main_arg9)) (ix2 q d) := by
  show V m c main_v23 (((cfg0.win 4).blk t).view.emb (ix2 d q)) = _
  rw [V_map1]
  obtain ⟨-, -, -, -, ⟨e0, e1⟩, -⟩ := idx_facts t
  refine transpose_apply _ _ _ _ _ fun a => ?_
  match a with
  | ⟨0, _⟩ => show d.val = win0_4.index t (0 : Fin 2) * 200 + 1 * d.val; omega
  | ⟨1, _⟩ => show q.val = win0_4.index t (1 : Fin 2) * 200 + 1 * q.val; omega

theorem read_bias0 (c : Dev nD) (t : Fin cfg0.N) (q : Fin 200) :
    iblk m c 3 t (ix3 (0 : Fin 1) (0 : Fin 1) q) = (m ((c.tc : Thread nD τ).loc main_arg8)) (ix1 q) := by
  show V m c main_v24 (((cfg0.win 3).blk t).view.emb (ix3 (0 : Fin 1) (0 : Fin 1) q)) = _
  rw [V_bias0]
  obtain ⟨-, -, -, ⟨e0, e1, e2⟩, -⟩ := idx_facts t
  have he : ((cfg0.win 3).blk t).view.emb (ix3 (0 : Fin 1) (0 : Fin 1) q) = ix3 (0 : Fin 1) (0 : Fin 1) q :=
    funext fun a => Fin.ext (by
      match a with
      | ⟨0, _⟩ => show win0_3.index t (0 : Fin 3) * 1 + 1 * 0 = 0; omega
      | ⟨1, _⟩ => show win0_3.index t (1 : Fin 3) * 1 + 1 * 0 = 0; omega
      | ⟨2, _⟩ => show win0_3.index t (2 : Fin 3) * 200 + 1 * q.val = q.val; omega)
  rw [he]
  exact Cert.RankThree.vecToUnits_apply _ shapeCasts_S200_S1x1x200 0 0 q

theorem read_bias1 (c : Dev nD) (t : Fin cfg0.N) (q : Fin 200) :
    iblk m c 5 t (ix3 (0 : Fin 1) (0 : Fin 1) q) = (m ((c.tc : Thread nD τ).loc main_arg10)) (ix1 q) := by
  show V m c main_v25 (((cfg0.win 5).blk t).view.emb (ix3 (0 : Fin 1) (0 : Fin 1) q)) = _
  rw [V_bias1]
  obtain ⟨-, -, -, -, -, ⟨e0, e1, e2⟩, -⟩ := idx_facts t
  have he : ((cfg0.win 5).blk t).view.emb (ix3 (0 : Fin 1) (0 : Fin 1) q) = ix3 (0 : Fin 1) (0 : Fin 1) q :=
    funext fun a => Fin.ext (by
      match a with
      | ⟨0, _⟩ => show win0_5.index t (0 : Fin 3) * 1 + 1 * 0 = 0; omega
      | ⟨1, _⟩ => show win0_5.index t (1 : Fin 3) * 1 + 1 * 0 = 0; omega
      | ⟨2, _⟩ => show win0_5.index t (2 : Fin 3) * 200 + 1 * q.val = q.val; omega)
  rw [he]
  exact Cert.RankThree.vecToUnits_apply _ shapeCasts_S200_S1x1x200 0 0 q

/-! ## The two results as whole-array functions of the arguments -/

/-- The feature result: the two-layer network at `(graph, node, feature)`. -/
def GFeat (a3 : S128x256x256.Idx → EReal) (X : S128x256x360.Idx → EReal) (a7 : S200x360.Idx → EReal) (a8 : S200.Idx → EReal)
    (a9 : S200x200.Idx → EReal) (a10 : S200.Idx → EReal) : S128x256x200.Idx → EReal := fun I =>
  Cert.Gcn.net (fun b i j => a3 (ix3 b i j)) (fun b i d => X (ix3 b i d)) (fun q d => a7 (ix2 q d)) (fun q => a8 (ix1 q))
    (fun q d => a9 (ix2 q d)) (fun q => a10 (ix1 q))
    (⟨(I 0).val, (I 0).isLt⟩ : Fin 128) (⟨(I 1).val, (I 1).isLt⟩ : Fin 256) (⟨(I 2).val, (I 2).isLt⟩ : Fin 200)

/-- The mask as the region leaves it: the comparison's bit as a float, 0 or 1. -/
def GMaskF (a3 : S128x256x256.Idx → EReal) : S128x256x1.Idx → EReal := fun I =>
  FloatOps.sitofp (F := Ideal) .f32 ((FloatOps.cmpf (F := Ideal) (φ := .f32) .oeq
    (Cert.Gcn.degTotal (fun b i j => a3 (ix3 b i j)) (⟨(I 0).val, (I 0).isLt⟩ : Fin 128) (⟨(I 1).val, (I 1).isLt⟩ : Fin 256))
    Cert.Gcn.zeroW).setWidth 32)

/-- The mask result: the bit "out-degree plus in-degree is zero". -/
def GMask (a3 : S128x256x256.Idx → EReal) : S128x256x1.Idx → BitVec 1 := fun I =>
  Ideal.cmp .oeq (Cert.Gcn.degTotal (fun b i j => a3 (ix3 b i j)) (⟨(I 0).val, (I 0).isLt⟩ : Fin 128) (⟨(I 1).val, (I 1).isLt⟩ : Fin 256))
    Cert.Gcn.zeroW

/-- The feature result of the arguments as launched. -/
abbrev GF (c : Dev nD) : S128x256x200.Idx → EReal :=
  GFeat (m ((c.tc : Thread nD τ).loc main_arg3)) (XK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10))

/-! ## One block, over variables -/

/-- A block whose inputs are the slab `t` of the whole arrays (the maps transposed, the biases as rows) computes the slab
    `t` of the whole-array network. -/
theorem feat_block (x0 : FVec Ideal S2x256x256 .f32) (x1 : FVec Ideal S2x256x360 .f32) (x2 : FVec Ideal S360x200 .f32)
    (x3 : FVec Ideal S1x1x200 .f32) (x4 : FVec Ideal S200x200 .f32) (x5 : FVec Ideal S1x1x200 .f32)
    (a3 : S128x256x256.Idx → EReal) (X : S128x256x360.Idx → EReal) (a7 : S200x360.Idx → EReal) (a8 : S200.Idx → EReal)
    (a9 : S200x200.Idx → EReal) (a10 : S200.Idx → EReal) (t : Fin cfg0.N)
    (h0 : ∀ b i j, x0 (ix3 b i j) = a3 (ix3 (bat t b) i j)) (h1 : ∀ b j d, x1 (ix3 b j d) = X (ix3 (bat t b) j d))
    (h2 : ∀ d q, x2 (ix2 d q) = a7 (ix2 q d)) (h3 : ∀ q, x3 (ix3 (0 : Fin 1) (0 : Fin 1) q) = a8 (ix1 q))
    (h4 : ∀ d q, x4 (ix2 d q) = a9 (ix2 q d)) (h5 : ∀ q, x5 (ix3 (0 : Fin 1) (0 : Fin 1) q) = a10 (ix1 q))
    (b : Fin 2) (i : Fin 256) (q : Fin 200) :
    k0_pay1 (F := Ideal) (k0_pay3 x0) (k0_pay5 x0 x1 x2 x3) x4 x5 (ix3 b i q) = GFeat a3 X a7 a8 a9 a10 (ix3 (bat t b) i q) := by
  rw [Blk.feat_apply]
  simp only [h0, h1, h2, h3, h4, h5]
  rfl

theorem mask_block (x0 : FVec Ideal S2x256x256 .f32) (a3 : S128x256x256.Idx → EReal) (t : Fin cfg0.N)
    (h0 : ∀ b i j, x0 (ix3 b i j) = a3 (ix3 (bat t b) i j)) (b : Fin 2) (i : Fin 256) (u : Fin 1) :
    k0_pay4 (F := Ideal) x0 (ix3 b i u) = GMaskF a3 (ix3 (bat t b) i u) := by
  rw [Blk.pay4_apply]
  simp only [h0]
  rfl

/-! ## What a grid point writes back -/

theorem flushedFeat_eq (c : Dev nD) (t : Fin cfg0.N) :
    (dats m 0 c).flushed 6 t = ((cfg0.win 6).blk t).view.read (Elt Ideal) (GF m c) := by
  show (cfg0.win 6).cut (grid0.coords t) ((dats m 0 c).after 6 t) = _
  rw [after_feat]
  unfold outFeat
  rw [View.canon_unit_zero hz3]
  simp only [View.ld_unit_zero (S := S2x256x256) hz3, View.ld_unit_zero (S := S2x256x360) hz3, View.ld_unit_zero (S := S360x200) hz2,
    View.ld_unit_zero (S := S1x1x200) hz3, View.ld_unit_zero (S := S200x200) hz2]
  funext y
  obtain ⟨b, i, q, rfl⟩ : ∃ (b : Fin 2) (i : Fin 256) (q : Fin 200), y = ix3 b i q := ⟨y 0, y 1, y 2, eq_ix3 y⟩
  refine (feat_block (iblk m c 0 t) (iblk m c 1 t) (iblk m c 2 t) (iblk m c 3 t) (iblk m c 4 t) (iblk m c 5 t)
    (m ((c.tc : Thread nD τ).loc main_arg3)) (XK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10)) t
    (read_adj m c t) (read_feat m c t) (read_map0 m c t) (read_bias0 m c t) (read_map1 m c t) (read_bias1 m c t) b i q).trans ?_
  show GF m c (ix3 (bat t b) i q) = GF m c (((cfg0.win 6).blk t).view.emb (ix3 b i q))
  obtain ⟨-, -, -, -, -, -, ⟨e0, e1, e2⟩, -⟩ := idx_facts t
  refine congrArg _ (funext fun a => Fin.ext ?_)
  match a with
  | ⟨0, _⟩ => show 2 * t.val + b.val = win0_6.index t (0 : Fin 3) * 2 + 1 * b.val; omega
  | ⟨1, _⟩ => show i.val = win0_6.index t (1 : Fin 3) * 256 + 1 * i.val; omega
  | ⟨2, _⟩ => show q.val = win0_6.index t (2 : Fin 3) * 200 + 1 * q.val; omega

theorem flushedMask_eq (c : Dev nD) (t : Fin cfg0.N) :
    (dats m 0 c).flushed 7 t = ((cfg0.win 7).blk t).view.read (Elt Ideal) (GMaskF (m ((c.tc : Thread nD τ).loc main_arg3))) := by
  show (cfg0.win 7).cut (grid0.coords t) ((dats m 0 c).after 7 t) = _
  rw [after_mask]
  unfold outMask
  rw [View.canon_unit_zero hz3]
  simp only [View.ld_unit_zero (S := S2x256x256) hz3]
  funext y
  obtain ⟨b, i, u, rfl⟩ : ∃ (b : Fin 2) (i : Fin 256) (u : Fin 1), y = ix3 b i u := ⟨y 0, y 1, y 2, eq_ix3 y⟩
  refine (mask_block (iblk m c 0 t) (m ((c.tc : Thread nD τ).loc main_arg3)) t (read_adj m c t) b i u).trans ?_
  show GMaskF (m ((c.tc : Thread nD τ).loc main_arg3)) (ix3 (bat t b) i u) = GMaskF (m ((c.tc : Thread nD τ).loc main_arg3)) (((cfg0.win 7).blk t).view.emb (ix3 b i u))
  obtain ⟨-, -, -, -, -, -, -, ⟨e0, e1, e2⟩⟩ := idx_facts t
  refine congrArg _ (funext fun a => Fin.ext ?_)
  match a with
  | ⟨0, _⟩ => show 2 * t.val + b.val = win0_7.index t (0 : Fin 3) * 2 + 1 * b.val; omega
  | ⟨1, _⟩ => show i.val = win0_7.index t (1 : Fin 3) * 256 + 1 * i.val; omega
  | ⟨2, _⟩ => show u.val = win0_7.index t (2 : Fin 3) * 1 + 1 * u.val; omega

/-! ## The 64 slabs cover the arrays -/

theorem mem_blkFeat (t : Fin cfg0.N) (I : S128x256x200.Idx) :
    I ∈ ((cfg0.win 6).blk t).view.set ↔ ∀ a : Fin 3, win0_6.index t a * S2x256x200.size a ≤ (I a).val ∧ (I a).val < win0_6.index t a * S2x256x200.size a + S2x256x200.size a := by
  show I ∈ ((View.whole main_v26_0).slice (win0_6.rect t)).set ↔ _
  rw [View.set_slice_whole, Rect.mem_set_unit]
  exact Iff.rfl

theorem mem_blkMask (t : Fin cfg0.N) (I : S128x256x1.Idx) :
    I ∈ ((cfg0.win 7).blk t).view.set ↔ ∀ a : Fin 3, win0_7.index t a * S2x256x1.size a ≤ (I a).val ∧ (I a).val < win0_7.index t a * S2x256x1.size a + S2x256x1.size a := by
  show I ∈ ((View.whole main_v26_1).slice (win0_7.rect t)).set ↔ _
  rw [View.set_slice_whole, Rect.mem_set_unit]
  exact Iff.rfl

/-- Graph `g` lies in the slab of point `g / 2`. -/
theorem coveredFeat (I : S128x256x200.Idx) : ∃ t : Fin cfg0.N, (cfg0.win 6).flush t = true ∧ I ∈ ((cfg0.win 6).blk t).view.set := by
  have h0 : (I 0).val < 128 := (I 0).isLt
  have h1 : (I 1).val < 256 := (I 1).isLt
  have h2 : (I 2).val < 200 := (I 2).isLt
  have hN : (I 0).val / 2 < cfg0.N := by rw [show cfg0.N = 64 from N_0]; omega
  refine ⟨⟨(I 0).val / 2, hN⟩, flush0_6 _, ?_⟩
  rw [mem_blkFeat]
  obtain ⟨-, -, -, -, -, -, ⟨e0, e1, e2⟩, -⟩ := idx_facts ⟨(I 0).val / 2, hN⟩
  intro a
  match a with
  | ⟨0, _⟩ => show win0_6.index ⟨(I 0).val / 2, hN⟩ (0 : Fin 3) * 2 ≤ (I 0).val ∧ (I 0).val < win0_6.index ⟨(I 0).val / 2, hN⟩ (0 : Fin 3) * 2 + 2; rw [e0]; show (I 0).val / 2 * 2 ≤ (I 0).val ∧ (I 0).val < (I 0).val / 2 * 2 + 2; omega
  | ⟨1, _⟩ => show win0_6.index ⟨(I 0).val / 2, hN⟩ (1 : Fin 3) * 256 ≤ (I 1).val ∧ (I 1).val < win0_6.index ⟨(I 0).val / 2, hN⟩ (1 : Fin 3) * 256 + 256; omega
  | ⟨2, _⟩ => show win0_6.index ⟨(I 0).val / 2, hN⟩ (2 : Fin 3) * 200 ≤ (I 2).val ∧ (I 2).val < win0_6.index ⟨(I 0).val / 2, hN⟩ (2 : Fin 3) * 200 + 200; omega

theorem coveredMask (I : S128x256x1.Idx) : ∃ t : Fin cfg0.N, (cfg0.win 7).flush t = true ∧ I ∈ ((cfg0.win 7).blk t).view.set := by
  have h0 : (I 0).val < 128 := (I 0).isLt
  have h1 : (I 1).val < 256 := (I 1).isLt
  have h2 : (I 2).val < 1 := (I 2).isLt
  have hN : (I 0).val / 2 < cfg0.N := by rw [show cfg0.N = 64 from N_0]; omega
  refine ⟨⟨(I 0).val / 2, hN⟩, flush0_7 _, ?_⟩
  rw [mem_blkMask]
  obtain ⟨-, -, -, -, -, -, -, ⟨e0, e1, e2⟩⟩ := idx_facts ⟨(I 0).val / 2, hN⟩
  intro a
  match a with
  | ⟨0, _⟩ => show win0_7.index ⟨(I 0).val / 2, hN⟩ (0 : Fin 3) * 2 ≤ (I 0).val ∧ (I 0).val < win0_7.index ⟨(I 0).val / 2, hN⟩ (0 : Fin 3) * 2 + 2; rw [e0]; show (I 0).val / 2 * 2 ≤ (I 0).val ∧ (I 0).val < (I 0).val / 2 * 2 + 2; omega
  | ⟨1, _⟩ => show win0_7.index ⟨(I 0).val / 2, hN⟩ (1 : Fin 3) * 256 ≤ (I 1).val ∧ (I 1).val < win0_7.index ⟨(I 0).val / 2, hN⟩ (1 : Fin 3) * 256 + 256; omega
  | ⟨2, _⟩ => show win0_7.index ⟨(I 0).val / 2, hN⟩ (2 : Fin 3) * 1 ≤ (I 2).val ∧ (I 2).val < win0_7.index ⟨(I 0).val / 2, hN⟩ (2 : Fin 3) * 1 + 1; omega

/-! ## The arrays after the region -/

theorem finalFeat (c : Dev nD) : (dats m 0 c).arrAt 6 cfg0.N = GF m c :=
  (dats m 0 c).arrAt_eq_of_cover 6 (GF m c) (fun t _ => flushedFeat_eq m c t) coveredFeat

theorem finalMask (c : Dev nD) : (dats m 0 c).arrAt 7 cfg0.N = GMaskF (m ((c.tc : Thread nD τ).loc main_arg3)) :=
  (dats m 0 c).arrAt_eq_of_cover 7 (GMaskF (m ((c.tc : Thread nD τ).loc main_arg3))) (fun t _ => flushedMask_eq m c t) coveredMask

/-! ## The mask through the host lines after the region -/

/-- One half, as the extended real its f32 word denotes. -/
theorem half_val : Cert.Gcn.halfW = ((1 / 2 : ℝ) : EReal) := by
  unfold Cert.Gcn.halfW
  simp [Ideal.ofBits, Ideal.ieee, -EReal.coe_mul]; norm_num

/-- A bit widened to a word and converted to a float exceeds one half exactly when the bit is set. -/
theorem bit_gt_half (w : BitVec 1) :
    Ideal.cmp .ogt (FloatOps.sitofp (F := Ideal) .f32 (w.setWidth 32)) Cert.Gcn.halfW = w := by
  rw [half_val]
  have hw : w = 0#1 ∨ w = 1#1 := by
    rcases (by decide : ∀ v : BitVec 1, v = 0#1 ∨ v = 1#1) w with h | h <;> [exact .inl h; exact .inr h]
  rcases hw with rfl | rfl
  · show BitVec.ofBool (decide (((1 / 2 : ℝ) : EReal) < (((((0#1 : BitVec 1).setWidth 32).toInt : ℤ) : ℝ) : EReal))) = 0#1
    rw [show ((0#1 : BitVec 1).setWidth 32).toInt = 0 from by decide]
    have hlt : ¬ (((1 / 2 : ℝ) : EReal) < (((0 : ℤ) : ℝ) : EReal)) := by
      rw [EReal.coe_lt_coe_iff]; norm_num
    rw [decide_eq_false hlt]
    rfl
  · show BitVec.ofBool (decide (((1 / 2 : ℝ) : EReal) < (((((1#1 : BitVec 1).setWidth 32).toInt : ℤ) : ℝ) : EReal))) = 1#1
    rw [show ((1#1 : BitVec 1).setWidth 32).toInt = 1 from by decide]
    have hlt : ((1 / 2 : ℝ) : EReal) < (((1 : ℤ) : ℝ) : EReal) := by
      rw [EReal.coe_lt_coe_iff]; norm_num
    rw [decide_eq_true hlt]
    rfl

theorem tail_mask (c : Dev nD) :
    Pipeline.afterTail₀ cfgs (dats m) 0 (V0 m) [hostOps1] c main_v28 = GMask (m ((c.tc : Thread nD τ).loc main_arg3)) := by
  unfold Pipeline.afterTail₀
  show StableHlo.after hostOps1 _ (Proc.devRef .tc main_v28) = _
  host_results
  rw [(Pipeline.withArrays_arr spec0 launch0.win.arr_inj c _ _ 7).trans (finalMask m c)]
  funext I
  exact bit_gt_half _

/-! ## The run, read -/

/-- Every execution ends with the feature result at `GF`, the mask at `GMask`, and the arguments as launched. -/
theorem run : θ_run defs (onTc (τ := τ) (main (F := Ideal))) ⟨m, fun _ => 0, ρ⟩ fun r => ∀ c : Dev nD,
      r.2.mem ((c.tc : Thread nD τ).loc main_v26_0) = GF m c
      ∧ r.2.mem ((c.tc : Thread nD τ).loc main_v28) = GMask (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 6).trans (finalFeat m c),
      ((h c).2 main_v28 (Pipeline.mem_restRefs_of main_v28 (by decide) (by decide))).trans (tail_mask m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 0).trans (((dats m 0 c).arrAt_in 0 rfl _).trans ((A_eq m c 0).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Val

end
-- ==== Proof.RefIsSpec.lean ====
/-
  The reference program computes the graph-convolution specification, entry by entry.

  Its embedded-feature array (three table look-ups joined along the feature axis) is kept as one term `X0`; over it and
  the adjacency `A` the reference forms, for each layer, `A·H + H`, the dense map, twice the bias, the quotient by
  `1 + ∑ⱼ A b i j` and the maximum with zero, and separately the comparison of the row sum plus the column sum of `A`
  with zero. Each generated stage is read at a coordinate triple; the coordinate maps of the layout steps and of the
  contractions are identified with the coordinate constructors by case analysis on the axis. The sums' zero initial
  value is dropped; no other arithmetic law is used.
-/
import proofs.«139517_j65077344469279_1_alg».proof.Proof.Gen.ReferenceIdeal.Read
import proofs.«139517_j65077344469279_1_alg».proof.Proof.GcnSpec

noncomputable section

namespace Cert.ReferenceIdeal.RefValue

open Cert.ReferenceIdeal Cert.ReferenceIdeal.Gen Cert.ReferenceIdeal.Read Idealize.ShloMosaic Idealize.ShloMosaic.ValueIdx

/-! ## Index equations: the generated coordinate maps at a coordinate triple -/

theorem idx31_ix (b : Fin 128) (i : Fin 256) (z : Fin 1) : idx_main_v31 (ix3 b i z) = ix2 b i := by
  funext a; match a with | ⟨0, _⟩ => rfl | ⟨1, _⟩ => rfl

theorem idx26_ix (b : Fin 128) (i : Fin 256) (k : Fin 256) : idx_main_v26 (ix2 b i) k = ix3 b i k := by
  funext a; match a with | ⟨0, _⟩ => rfl | ⟨1, _⟩ => rfl | ⟨2, _⟩ => rfl

theorem idx27_ix (b : Fin 128) (i : Fin 256) (k : Fin 256) : idx_main_v27 (ix2 b i) k = ix3 b k i := by
  funext a; match a with | ⟨0, _⟩ => rfl | ⟨1, _⟩ => rfl | ⟨2, _⟩ => rfl

/-- The row sums of the adjacency as the reference computes them (second reduction over the last axis). -/
theorem v26_ix (a3 : (⟨S128x256x256, .f32⟩ : BufTy).Contents (Elt Ideal)) (b : Fin 128) (i : Fin 256) :
    val_main_v26 (F := Ideal) a3 (ix2 b i) = ∑ j : Fin 256, a3 (ix3 b i j) := by
  rw [val_main_v26_apply, val_main_cst_6_apply]
  show Ideal.ofBits .f32 0x00000000#32 + _ = _
  rw [Ideal.ofBits_zero_f32, zero_add]
  exact Finset.sum_congr rfl fun k _ => by rw [idx26_ix]

/-- The column sums of the adjacency as the reference computes them. -/
theorem v27_ix (a3 : (⟨S128x256x256, .f32⟩ : BufTy).Contents (Elt Ideal)) (b : Fin 128) (i : Fin 256) :
    val_main_v27 (F := Ideal) a3 (ix2 b i) = ∑ j : Fin 256, a3 (ix3 b j i) := by
  rw [val_main_v27_apply, val_main_cst_7_apply]
  show Ideal.ofBits .f32 0x00000000#32 + _ = _
  rw [Ideal.ofBits_zero_f32, zero_add]
  exact Finset.sum_congr rfl fun k _ => by rw [idx27_ix]

/-- The mask result at `(b, i, 0)`: the ordered-equal comparison of the degree total with the zero word. -/
theorem mask_ix (a3 : (⟨S128x256x256, .f32⟩ : BufTy).Contents (Elt Ideal)) (b : Fin 128) (i : Fin 256) (z : Fin 1) :
    val_main_v31 (F := Ideal) a3 (ix3 b i z)
      = Ideal.cmp .oeq (Cert.Gcn.degTotal (fun b i j => a3 (ix3 b i j)) b i) Cert.Gcn.zeroW := by
  rw [val_main_v31_apply, idx31_ix, val_main_v30_apply, val_main_v28_apply, v26_ix, v27_ix, val_main_v29_apply,
    val_main_cst_8_apply]
  rfl

/-! ## The embedded features

The three table look-ups joined along the feature axis. The term is kept whole: nothing below reads it at an index. -/

/-- The embedded-feature array `x : [128, 256, 360]`: the composition of the host operations that build it. -/
def X0 (a0 a1 a2 : (⟨S128x256, .i32⟩ : BufTy).Contents (Elt Ideal)) (a4 : (⟨S50000x300, .f32⟩ : BufTy).Contents (Elt Ideal)) (a5 : (⟨S52x30, .f32⟩ : BufTy).Contents (Elt Ideal)) (a6 : (⟨S20x30, .f32⟩ : BufTy).Contents (Elt Ideal)) : (⟨S128x256x360, .f32⟩ : BufTy).Contents (Elt Ideal) :=
  concatenate S128x256x360 2 [⟨S128x256x300, (Host.gather gather_S50000x300_S128x256x1_S128x256x300_2_0_n_n_0_2_1300 a4 (broadcastInDim S128x256x1 ![0, 1] bcast_S128x256_S128x256x1_0_1 (select (cmpi .slt a0 (broadcastInDim S128x256 ![] bcast_S_S128x256 (constantI S_ 32 0#32))) (addi a0 (broadcastInDim S128x256 ![] bcast_S_S128x256 (constantI S_ 32 50000#32))) a0)))⟩, ⟨S128x256x30, (Host.gather gather_S52x30_S128x256x1_S128x256x30_2_0_n_n_0_2_130 a5 (broadcastInDim S128x256x1 ![0, 1] bcast_S128x256_S128x256x1_0_1 (select (cmpi .slt a1 (broadcastInDim S128x256 ![] bcast_S_S128x256 (constantI S_ 32 0#32))) (addi a1 (broadcastInDim S128x256 ![] bcast_S_S128x256 (constantI S_ 32 52#32))) a1)))⟩, ⟨S128x256x30, (Host.gather gather_S20x30_S128x256x1_S128x256x30_2_0_n_n_0_2_130 a6 (broadcastInDim S128x256x1 ![0, 1] bcast_S128x256_S128x256x1_0_1 (select (cmpi .slt a2 (broadcastInDim S128x256 ![] bcast_S_S128x256 (constantI S_ 32 0#32))) (addi a2 (broadcastInDim S128x256 ![] bcast_S_S128x256 (constantI S_ 32 20#32))) a2)))⟩] concatenates_S128x256x300_S128x256x30_S128x256x30_S128x256x360_d2

/-- The generated stage of the join is that composition. -/
theorem X0_eq (a0 a1 a2 : (⟨S128x256, .i32⟩ : BufTy).Contents (Elt Ideal)) (a4 : (⟨S50000x300, .f32⟩ : BufTy).Contents (Elt Ideal)) (a5 : (⟨S52x30, .f32⟩ : BufTy).Contents (Elt Ideal)) (a6 : (⟨S20x30, .f32⟩ : BufTy).Contents (Elt Ideal)) :
    val_main_v21 (F := Ideal) a0 a1 a2 a4 a5 a6 = X0 a0 a1 a2 a4 a5 a6 := rfl

/-! ## Index equations: the generated coordinate maps at a coordinate triple -/

theorem idx23_ix (b : Fin 128) (i : Fin 256) (z : Fin 1) : idx_main_v23 (ix3 b i z) = ix2 b i := by
  funext a; match a with | ⟨0, _⟩ => rfl | ⟨1, _⟩ => rfl
theorem idx22_ix (b : Fin 128) (i : Fin 256) (k : Fin 256) : idx_main_v22 (ix2 b i) k = ix3 b i k := by
  funext a; match a with | ⟨0, _⟩ => rfl | ⟨1, _⟩ => rfl | ⟨2, _⟩ => rfl
theorem idx40_ix (b : Fin 128) (i : Fin 256) (q : Fin 200) : idx_main_v40 (ix3 b i q) = ix3 b i (0 : Fin 1) := by
  funext a; match a with | ⟨0, _⟩ => rfl | ⟨1, _⟩ => rfl | ⟨2, _⟩ => rfl
theorem idx51_ix (b : Fin 128) (i : Fin 256) (q : Fin 200) : idx_main_v51 (ix3 b i q) = ix3 b i (0 : Fin 1) := by
  funext a; match a with | ⟨0, _⟩ => rfl | ⟨1, _⟩ => rfl | ⟨2, _⟩ => rfl
theorem idx38_ix (b : Fin 128) (i : Fin 256) (q : Fin 200) : idx_main_v38 (ix3 b i q) = ix3 (0 : Fin 1) (0 : Fin 1) q := by
  funext a; match a with | ⟨0, _⟩ => rfl | ⟨1, _⟩ => rfl | ⟨2, _⟩ => rfl
theorem idx49_ix (b : Fin 128) (i : Fin 256) (q : Fin 200) : idx_main_v49 (ix3 b i q) = ix3 (0 : Fin 1) (0 : Fin 1) q := by
  funext a; match a with | ⟨0, _⟩ => rfl | ⟨1, _⟩ => rfl | ⟨2, _⟩ => rfl
theorem idx37_ix (y z : Fin 1) (q : Fin 200) : idx_main_v37 (ix3 y z q) = ix1 q := by
  funext a; match a with | ⟨0, _⟩ => rfl
theorem idx48_ix (y z : Fin 1) (q : Fin 200) : idx_main_v48 (ix3 y z q) = ix1 q := by
  funext a; match a with | ⟨0, _⟩ => rfl
theorem lidx32_ix (b : Fin 128) (i : Fin 256) (d : Fin 360) (j : Fin 256) : lidx_main_v32 (ix3 b i d) j = ix3 b i j := by
  funext a; match a with | ⟨0, _⟩ => rfl | ⟨1, _⟩ => rfl | ⟨2, _⟩ => rfl
theorem ridx32_ix (b : Fin 128) (i : Fin 256) (d : Fin 360) (j : Fin 256) : ridx_main_v32 (ix3 b i d) j = ix3 b j d := by
  funext a; match a with | ⟨0, _⟩ => rfl | ⟨1, _⟩ => rfl | ⟨2, _⟩ => rfl
theorem lidx34_ix (b : Fin 128) (i : Fin 256) (q : Fin 200) (d : Fin 360) : lidx_main_v34 (ix3 b i q) d = ix3 b i d := by
  funext a; match a with | ⟨0, _⟩ => rfl | ⟨1, _⟩ => rfl | ⟨2, _⟩ => rfl
theorem ridx34_ix (b : Fin 128) (i : Fin 256) (q : Fin 200) (d : Fin 360) : ridx_main_v34 (ix3 b i q) d = ix2 q d := by
  funext a; match a with | ⟨0, _⟩ => rfl | ⟨1, _⟩ => rfl
theorem lidx43_ix (b : Fin 128) (i : Fin 256) (d : Fin 200) (j : Fin 256) : lidx_main_v43 (ix3 b i d) j = ix3 b i j := by
  funext a; match a with | ⟨0, _⟩ => rfl | ⟨1, _⟩ => rfl | ⟨2, _⟩ => rfl
theorem ridx43_ix (b : Fin 128) (i : Fin 256) (d : Fin 200) (j : Fin 256) : ridx_main_v43 (ix3 b i d) j = ix3 b j d := by
  funext a; match a with | ⟨0, _⟩ => rfl | ⟨1, _⟩ => rfl | ⟨2, _⟩ => rfl
theorem lidx45_ix (b : Fin 128) (i : Fin 256) (q : Fin 200) (d : Fin 200) : lidx_main_v45 (ix3 b i q) d = ix3 b i d := by
  funext a; match a with | ⟨0, _⟩ => rfl | ⟨1, _⟩ => rfl | ⟨2, _⟩ => rfl
theorem ridx45_ix (b : Fin 128) (i : Fin 256) (q : Fin 200) (d : Fin 200) : ridx_main_v45 (ix3 b i q) d = ix2 q d := by
  funext a; match a with | ⟨0, _⟩ => rfl | ⟨1, _⟩ => rfl

/-! ## The shared pieces: the divisor and the doubled biases -/

/-- The divisor `1 + ∑ⱼ A b i j`, held as a `[128, 256, 1]` column. -/
theorem v25_ix (a3 : (⟨S128x256x256, .f32⟩ : BufTy).Contents (Elt Ideal)) (b : Fin 128) (i : Fin 256) (z : Fin 1) :
    val_main_v25 (F := Ideal) a3 (ix3 b i z) = Cert.Gcn.denom (fun b i j => a3 (ix3 b i j)) b i := by
  rw [val_main_v25_apply, val_main_v23_apply, idx23_ix, val_main_v22_apply, val_main_cst_apply, val_main_v24_apply,
    val_main_cst_5_apply]
  show (Ideal.ofBits .f32 0x00000000#32 + ∑ k : Fin 256, a3 (idx_main_v22 (ix2 b i) k)) + Cert.Gcn.oneW = _
  rw [Ideal.ofBits_zero_f32, zero_add]
  exact congrArg (· + Cert.Gcn.oneW) (Finset.sum_congr rfl fun k _ => by rw [idx22_ix])

/-- The first layer's bias term `2 · b0 q`, spread over the batch and the nodes. -/
theorem v38_ix (a8 : (⟨S200, .f32⟩ : BufTy).Contents (Elt Ideal)) (b : Fin 128) (i : Fin 256) (q : Fin 200) :
    val_main_v38 (F := Ideal) a8 (ix3 b i q) = Cert.Gcn.twoW * a8 (ix1 q) := by
  rw [val_main_v38_apply, idx38_ix, val_main_v37_apply, idx37_ix, val_main_v36_apply, val_main_v35_apply, val_main_cst_9_apply]
  rfl

/-- The second layer's bias term `2 · b1 q`. -/
theorem v49_ix (a10 : (⟨S200, .f32⟩ : BufTy).Contents (Elt Ideal)) (b : Fin 128) (i : Fin 256) (q : Fin 200) :
    val_main_v49 (F := Ideal) a10 (ix3 b i q) = Cert.Gcn.twoW * a10 (ix1 q) := by
  rw [val_main_v49_apply, idx49_ix, val_main_v48_apply, idx48_ix, val_main_v47_apply, val_main_v46_apply, val_main_cst_10_apply]
  rfl

/-! ## The first layer -/

section
variable (a0 a1 a2 : (⟨S128x256, .i32⟩ : BufTy).Contents (Elt Ideal)) (a3 : (⟨S128x256x256, .f32⟩ : BufTy).Contents (Elt Ideal)) (a4 : (⟨S50000x300, .f32⟩ : BufTy).Contents (Elt Ideal)) (a5 : (⟨S52x30, .f32⟩ : BufTy).Contents (Elt Ideal)) (a6 : (⟨S20x30, .f32⟩ : BufTy).Contents (Elt Ideal))
  (a7 : (⟨S200x360, .f32⟩ : BufTy).Contents (Elt Ideal)) (a8 : (⟨S200, .f32⟩ : BufTy).Contents (Elt Ideal)) (a9 : (⟨S200x200, .f32⟩ : BufTy).Contents (Elt Ideal)) (a10 : (⟨S200, .f32⟩ : BufTy).Contents (Elt Ideal))

/-- Aggregation plus the node's own features, over the embedded features. -/
theorem v33_ix (b : Fin 128) (i : Fin 256) (d : Fin 360) :
    val_main_v33 (F := Ideal) a0 a1 a2 a3 a4 a5 a6 (ix3 b i d)
      = Cert.Gcn.agg (fun b i j => a3 (ix3 b i j)) (fun b i d => X0 a0 a1 a2 a4 a5 a6 (ix3 b i d)) b i d := by
  rw [val_main_v33_apply, val_main_v32_apply, X0_eq]
  show (∑ k : Fin 256, a3 (lidx_main_v32 (ix3 b i d) k) * X0 a0 a1 a2 a4 a5 a6 (ridx_main_v32 (ix3 b i d) k))
      + X0 a0 a1 a2 a4 a5 a6 (ix3 b i d) = _
  exact congrArg (· + X0 a0 a1 a2 a4 a5 a6 (ix3 b i d)) (Finset.sum_congr rfl fun k _ => by rw [lidx32_ix, ridx32_ix])

/-- The first layer's output `h : [128, 256, 200]` is the specification's layer of the embedded features. -/
theorem v42_ix (b : Fin 128) (i : Fin 256) (q : Fin 200) :
    val_main_v42 (F := Ideal) a0 a1 a2 a3 a4 a5 a6 a7 a8 (ix3 b i q)
      = Cert.Gcn.layer (fun b i j => a3 (ix3 b i j)) (fun b i d => X0 a0 a1 a2 a4 a5 a6 (ix3 b i d))
          (fun q d => a7 (ix2 q d)) (fun q => a8 (ix1 q)) b i q := by
  rw [val_main_v42_apply, val_main_v41_apply, val_main_v39_apply, val_main_v34_apply, v38_ix, val_main_v40_apply, idx40_ix,
    v25_ix, val_main_call0_v0_apply, val_main_call0_cst_apply]
  show max (Ideal.div ((∑ k : Fin 360, val_main_v33 (F := Ideal) a0 a1 a2 a3 a4 a5 a6 (lidx_main_v34 (ix3 b i q) k)
      * a7 (ridx_main_v34 (ix3 b i q) k)) + Cert.Gcn.twoW * a8 (ix1 q)) (Cert.Gcn.denom (fun b i j => a3 (ix3 b i j)) b i))
      Cert.Gcn.zeroW = _
  have hs : (∑ k : Fin 360, val_main_v33 (F := Ideal) a0 a1 a2 a3 a4 a5 a6 (lidx_main_v34 (ix3 b i q) k)
      * a7 (ridx_main_v34 (ix3 b i q) k))
      = ∑ d : Fin 360, Cert.Gcn.agg (fun b i j => a3 (ix3 b i j)) (fun b i d => X0 a0 a1 a2 a4 a5 a6 (ix3 b i d)) b i d
          * a7 (ix2 q d) :=
    Finset.sum_congr rfl fun k _ => by rw [lidx34_ix, ridx34_ix, v33_ix]
  rw [hs]
  rfl

/-! ## The second layer -/

/-- Aggregation plus the node's own features, over the first layer's output. -/
theorem v44_ix (b : Fin 128) (i : Fin 256) (d : Fin 200) :
    val_main_v44 (F := Ideal) a0 a1 a2 a3 a4 a5 a6 a7 a8 (ix3 b i d)
      = Cert.Gcn.agg (fun b i j => a3 (ix3 b i j))
          (Cert.Gcn.layer (fun b i j => a3 (ix3 b i j)) (fun b i d => X0 a0 a1 a2 a4 a5 a6 (ix3 b i d))
            (fun q d => a7 (ix2 q d)) (fun q => a8 (ix1 q))) b i d := by
  rw [val_main_v44_apply, val_main_v43_apply, v42_ix]
  show (∑ k : Fin 256, a3 (lidx_main_v43 (ix3 b i d) k)
      * val_main_v42 (F := Ideal) a0 a1 a2 a3 a4 a5 a6 a7 a8 (ridx_main_v43 (ix3 b i d) k)) + _ = _
  exact congrArg (· + _) (Finset.sum_congr rfl fun k _ => by rw [lidx43_ix, ridx43_ix, v42_ix])

/-- The reference's first result at `(b, i, q)` is the two-layer network of the adjacency, the embedded features,
    and the two dense maps and biases. -/
theorem v53_ix (b : Fin 128) (i : Fin 256) (q : Fin 200) :
    val_main_v53 (F := Ideal) a0 a1 a2 a3 a4 a5 a6 a7 a8 a9 a10 (ix3 b i q)
      = Cert.Gcn.net (fun b i j => a3 (ix3 b i j)) (fun b i d => X0 a0 a1 a2 a4 a5 a6 (ix3 b i d))
          (fun q d => a7 (ix2 q d)) (fun q => a8 (ix1 q)) (fun q d => a9 (ix2 q d)) (fun q => a10 (ix1 q)) b i q := by
  rw [val_main_v53_apply, val_main_v52_apply, val_main_v50_apply, val_main_v45_apply, v49_ix, val_main_v51_apply, idx51_ix,
    v25_ix, val_main_call1_v0_apply, val_main_call1_cst_apply]
  have hs : (∑ k : Fin 200, val_main_v44 (F := Ideal) a0 a1 a2 a3 a4 a5 a6 a7 a8 (lidx_main_v45 (ix3 b i q) k)
      * a9 (ridx_main_v45 (ix3 b i q) k))
      = ∑ d : Fin 200, Cert.Gcn.agg (fun b i j => a3 (ix3 b i j))
          (Cert.Gcn.layer (fun b i j => a3 (ix3 b i j)) (fun b i d => X0 a0 a1 a2 a4 a5 a6 (ix3 b i d))
            (fun q d => a7 (ix2 q d)) (fun q => a8 (ix1 q))) b i d * a9 (ix2 q d) :=
    Finset.sum_congr rfl fun k _ => by rw [lidx45_ix, ridx45_ix, v44_ix]
  rw [hs]
  rfl

end

/-! ## The two results of a run, as the run states them -/

section
open Idealize.ShloMosaic.TcCoe Idealize.SL.Sem

/-- The first result of a run of the reference, read at `(b, i, q)`: the network of the launch contents of the arguments. -/
theorem res_out0_ix (m : (ℓ : Loc nD τ sig) → Buf (Elt Ideal) ℓ) (c : Dev nD) (b : Fin 128) (i : Fin 256) (q : Fin 200) :
    Cert.ReferenceIdeal.Value.res_out0 (F := Ideal) m c (ix3 b i q)
      = Cert.Gcn.net (fun b i j => (m ((c.tc : Thread nD τ).loc main_arg3)) (ix3 b i j))
          (fun b i d => X0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (ix3 b i d))
          (fun q d => (m ((c.tc : Thread nD τ).loc main_arg7)) (ix2 q d)) (fun q => (m ((c.tc : Thread nD τ).loc main_arg8)) (ix1 q))
          (fun q d => (m ((c.tc : Thread nD τ).loc main_arg9)) (ix2 q d)) (fun q => (m ((c.tc : Thread nD τ).loc main_arg10)) (ix1 q)) b i q := by
  show Cert.ReferenceIdeal.Value.res_main_v53 (F := Ideal) m c (ix3 b i q) = _
  rw [val_main_v53_eq]
  exact v53_ix _ _ _ _ _ _ _ _ _ _ _ b i q

/-- The second result of a run, the term the run states for it, read at `(b, i, 0)`. -/
theorem res_out1_ix (a3 : (⟨S128x256x256, .f32⟩ : BufTy).Contents (Elt Ideal)) (b : Fin 128) (i : Fin 256) (z : Fin 1) :
    (broadcastInDim S128x256x1 ![0, 1] bcast_S128x256_S128x256x1_0_1 (cmpf .oeq (addf (Host.reduceAdd (F := Ideal) a3 (constant (F := Ideal) S_ .f32 0x00000000#32) reducesTo_S128x256x256_S128x256_d2 h_S_) (Host.reduceAdd (F := Ideal) a3 (constant (F := Ideal) S_ .f32 0x00000000#32) reducesTo_S128x256x256_S128x256_d1 h_S_)) (broadcastInDim S128x256 ![] bcast_S_S128x256 (constant (F := Ideal) S_ .f32 0x00000000#32))) : (⟨S128x256x1, .i1⟩ : BufTy).Contents (Elt Ideal)) (ix3 b i z)
      = Ideal.cmp .oeq (Cert.Gcn.degTotal (fun b i j => a3 (ix3 b i j)) b i) Cert.Gcn.zeroW := by
  rw [val_main_v31_eq]
  exact mask_ix a3 b i z

end

end Cert.ReferenceIdeal.RefValue

end
-- ==== Proof.lean ====
/-
  Kernel and reference compute one graph-convolution network, and run safely.

  The kernel embeds the tokens on the host (three table look-ups joined along the feature axis), then runs one pipelined
  region over 64 grid points, two graphs per point: per layer, aggregate the neighbours' features through the adjacency,
  add the node's own, apply the dense map, add the bias twice, divide by the out-degree plus one, rectify; it also marks
  the nodes with no edge in or out.  The reference does the same with whole-array contractions.  At the extended reals
  the narrowing of operands is the identity, a product into a zero accumulator is the plain sum, and the two programs
  form the same sums in the same arrangement, so no arithmetic law beyond dropping a zero initial value is used and the
  finiteness of the inputs is never opened.  Every graph is treated by itself, which is why the slabs the grid points
  write are slabs of one whole-array function (`Cert.Gcn.net`).  The mask leaves the region as a float 0 or 1 and is
  compared with one half on the host; that comparison returns the bit.

  The three frames: each kernel program is host lines, the region, host lines; the region's body reads and writes whole
  blocks and keeps nothing between points.  The reference is host lines only.  The idealization rewrote nothing, so
  there is nothing to preserve.
-/
import proofs.«139517_j65077344469279_1_alg».proof.Defs
import proofs.«139517_j65077344469279_1_alg».proof.Proof.Gen.Kernel
import proofs.«139517_j65077344469279_1_alg».proof.Proof.Gen.KernelIdeal
import proofs.«139517_j65077344469279_1_alg».proof.Proof.Gen.ReferenceIdeal
import proofs.«139517_j65077344469279_1_alg».proof.Proof.Gen.Pre_finite_inputs
import proofs.«139517_j65077344469279_1_alg».proof.Proof.Gen.ReferenceIdeal.Run
import proofs.«139517_j65077344469279_1_alg».proof.Proof.KernelFrame
import proofs.«139517_j65077344469279_1_alg».proof.Proof.KernelIdealFrame
import proofs.«139517_j65077344469279_1_alg».proof.Proof.KernelValue
import proofs.«139517_j65077344469279_1_alg».proof.Proof.RefIsSpec
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Fr.frame m ρ

theorem frame_kernelIdeal : Cert.frame_KernelIdeal := fun m ρ _ => Cert.KernelIdeal.Fr.frame m ρ

/-- The reference's run with its results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the feature result at the network of the arguments and the mask at the zero-degree bit. -/
theorem algebraic : Cert.algebraic_KernelIdeal_ReferenceIdeal := by
  intro m ρ m' ρ' _ hagree
  refine ⟨fun c => Cert.KernelIdeal.Val.GF m c,
    fun c => Cert.KernelIdeal.Val.GMask (m ((c.tc : Thread Cert.KernelIdeal.nD Cert.KernelIdeal.τ).loc Cert.KernelIdeal.main_arg3)),
    Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    funext I
    obtain ⟨b, i, q, rfl⟩ : ∃ (b : Fin 128) (i : Fin 256) (q : Fin 200), I = ix3 b i q := ⟨I 0, I 1, I 2, eq_ix3 I⟩
    refine (Cert.ReferenceIdeal.RefValue.res_out0_ix m' c b i q).trans ?_
    rw [h0, h1, h2, h3, h4, h5, h6, h7, h8, h9, h10]
    rfl
  · obtain ⟨-, -, -, h3, -⟩ := hagree c
    funext I
    obtain ⟨b, i, z, rfl⟩ : ∃ (b : Fin 128) (i : Fin 256) (z : Fin 1), I = ix3 b i z := ⟨I 0, I 1, I 2, eq_ix3 I⟩
    refine (Cert.ReferenceIdeal.RefValue.res_out1_ix _ b i z).trans ?_
    rw [h3]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
